-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S40 .f32) (main_v48 : IVec S_ 1) (main_v49 : FVec F S40x128 .f32) (main_v50 : FVec F S40x128 .f32) : IVec S_ 1 :=
  let main_v51 : IVec S40x128 1 := cmpf .olt main_v49 main_v50
  let main_c_19 : IVec S_ 1 := constantI S_ 1 1#1
  let main_v52 : IVec S_ 1 := (fun x v => Host.reduce IntOp.andi x v reducesTo_S40x128_S_d0_1 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S40x128 .f32) (main_arg12 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S40x128 .f32 := Host.absf main_arg11
  let main_cst_18 : FVec F S_ .f32 := constant S_ .f32 0x7F800000#32
  let main_v50 : FVec F S40x128 .f32 := broadcastInDim S40x128 ![] bcast_S_S40x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S40x128 .f32) (main_arg12 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S40x128 .f32) (main_arg12 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S2000x128 : Shape := ⟨2, ![2000, 128]⟩
abbrev S128x40 : Shape := ⟨2, ![128, 40]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 92
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S40x128, .f32⟩
  | .hbm, ⟨12, _⟩ => ⟨S40, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S128x128, .f32⟩
  | .hbm, ⟨66, _⟩ => ⟨S128x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S600000x1, .i32⟩
  | .hbm, ⟨81, _⟩ => ⟨S50000x128, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S128x128, .f32⟩
  | .hbm, ⟨86, _⟩ => ⟨S128x128, .f32⟩
  | .hbm, ⟨87, _⟩ => ⟨S1x128, .f32⟩
  | .hbm, ⟨88, _⟩ => ⟨S50000x128, .f32⟩
  | .hbm, ⟨89, _⟩ => ⟨S128x40, .f32⟩
  | .hbm, ⟨90, _⟩ => ⟨S1x40, .f32⟩
  | .hbm, ⟨91, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x40, .f32⟩
  | .local _ .vmem, ⟨30, _⟩ => ⟨S1x40, .f32⟩
  | .local _ .vmem, ⟨31, _⟩ => ⟨S2000x40, .f32⟩
  | .local _ .vmem, ⟨32, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S50000x40.size a
  hwx3_3 : ∀ i : grid3.Coords, EltTy.bits .f32 = 32 ∨ (Rect.block (s := S50000x40) S2000x40.size (cc3_transform_3 i) (hinb3_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S40x128, .f32⟩
  | .hbm, ⟨12, _⟩ => ⟨S40, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S128x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S128x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S600000, .i32⟩
  | .hbm, ⟨85, _⟩ => ⟨S600000, .i1⟩
  | .hbm, ⟨86, _⟩ => ⟨S_, .i32⟩
  | .hbm, ⟨87, _⟩ => ⟨S600000, .i32⟩
  | .hbm, ⟨88, _⟩ => ⟨S600000, .i32⟩
  | .hbm, ⟨89, _⟩ => ⟨S600000, .i32⟩
  | .hbm, ⟨90, _⟩ => ⟨S600000x1, .i32⟩
  | .hbm, ⟨91, _⟩ => ⟨S600000x128, .f32⟩
  | .hbm, ⟨92, _⟩ => ⟨S_, .f32⟩
  | .hbm, ⟨93, _⟩ => ⟨S50000x128, .f32⟩
  | .hbm, ⟨94, _⟩ => ⟨S600000x1, .i32⟩
  | .hbm, ⟨95, _⟩ => ⟨S50000x128, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S128x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S128x128, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S128x40, .f32⟩
  | .hbm, ⟨112, _⟩ => ⟨S50000x40, .f32⟩
  | .hbm, ⟨113, _⟩ => ⟨S1x40, .f32⟩
  | .hbm, ⟨114, _⟩ => ⟨S50000x40, .f32⟩
  | .hbm, ⟨115, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_8 : Ref sig .tc := ⟨.hbm, 83, rfl⟩
abbrev main_v56 : Ref sig .tc := ⟨.hbm, 84, rfl⟩
abbrev main_v57 : Ref sig .tc := ⟨.hbm, 85, rfl⟩
abbrev main_c_9 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call2_cst : Ref sig .tc := ⟨.hbm, 107, rfl⟩
abbrev main_call2_v0 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelHost.lean ====
/-
  The host stretches of the kernel program, each read as a function of the buffers it starts from.

  Between the gridded regions the program runs plain array operations: the edge list is split into sources and
  destinations, the in-degree of every node is counted by scattering ones, its reciprocal (of the degree clamped
  below at one) scales a scatter-add of gathered neighbour rows — the neighbourhood mean —, and the weights are
  transposed and the biases laid out as rows.  Every stretch is stated for ANY starting contents `W`.
-/
import proofs.«162701_j57921928954040_1_alg».proof.Proof.Gen.KernelIdeal.Launch
import Idealize.ShloMosaic.Lib.StableHlo.Run

set_option maxRecDepth 16384
set_option maxHeartbeats 4000000

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- The edges' source nodes: row 0 of the edge list. -/
def srcOf (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

/-- The edges' destination nodes: row 1 of the edge list. -/
def dstOf (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- One over the in-degree clamped below at one: ones scattered onto the destinations, max with 1, reciprocal. -/
def degInvOf (dst : (⟨S600000, .i32⟩ : BufTy).Contents (Elt F)) : (⟨S50000, .f32⟩ : BufTy).Contents (Elt F) :=
  Host.divf (broadcastInDim S50000 ![] bcast_S_S50000 (constant S_ .f32 0x3F800000#32))
    (maximumf
      (Host.scatterAdd scatter_S50000_S600000x1_S600000_n_0_0_1
        (broadcastInDim S50000 ![] bcast_S_S50000 (constant S_ .f32 0x00000000#32))
        (broadcastInDim S600000x1 ![0] bcast_S600000_S600000x1_0 dst)
        (broadcastInDim S600000 ![] bcast_S_S600000 (constant S_ .f32 0x3F800000#32)))
      (broadcastInDim S50000 ![] bcast_S_S50000 (constant S_ .f32 0x3F800000#32)))

/-- The neighbourhood mean of a feature array: rows gathered at the (wrapped) sources, added onto the destinations,
    scaled by the reciprocal degree. -/
def aggW (src dst : (⟨S600000, .i32⟩ : BufTy).Contents (Elt F)) (dinv : (⟨S50000, .f32⟩ : BufTy).Contents (Elt F)) (feat : (⟨S50000x128, .f32⟩ : BufTy).Contents (Elt F)) : (⟨S50000x128, .f32⟩ : BufTy).Contents (Elt F) :=
  mulf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst)
      (Host.gather gather_S50000x128_S600000x1_S600000x128_1_0_n_n_0_1_1128 feat
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1 (broadcastInDim S50000x1 ![0] bcast_S50000_S50000x1_0 dinv))

/-- A layer's weight matrix transposed to [in, out]. -/
def wT (w : (⟨S128x128, .f32⟩ : BufTy).Contents (Elt F)) : (⟨S128x128, .f32⟩ : BufTy).Contents (Elt F) := transpose S128x128 [1, 0] w transposes_S128x128_S128x128_1_0
/-- The classifier's weight matrix transposed to [128, 40]. -/
def wTc (w : (⟨S40x128, .f32⟩ : BufTy).Contents (Elt F)) : (⟨S128x40, .f32⟩ : BufTy).Contents (Elt F) := transpose S128x40 [1, 0] w transposes_S40x128_S128x40_1_0
/-- A bias vector laid out as a row. -/
def brow (b : (⟨S128, .f32⟩ : BufTy).Contents (Elt F)) : (⟨S1x128, .f32⟩ : BufTy).Contents (Elt F) := shapeCast S1x128 b shapeCasts_S128_S1x128
def browc (b : (⟨S40, .f32⟩ : BufTy).Contents (Elt F)) : (⟨S1x40, .f32⟩ : BufTy).Contents (Elt F) := shapeCast S1x40 b shapeCasts_S40_S1x40

variable (W : Valuation τ sig (Elt F))

/-! ## The first stretch -/

theorem st0_v1 : after hostOps0 W (Proc.devRef .tc main_v1) = srcOf (W (Proc.devRef .tc main_arg1)) := by
  after_results_simp <;> rfl
theorem st0_v3 : after hostOps0 W (Proc.devRef .tc main_v3) = dstOf (W (Proc.devRef .tc main_arg1)) := by
  after_results_simp <;> rfl
theorem st0_v11 : after hostOps0 W (Proc.devRef .tc main_v11) = degInvOf (dstOf (W (Proc.devRef .tc main_arg1))) := by
  after_results_simp <;> rfl
theorem st0_v24 : after hostOps0 W (Proc.devRef .tc main_v24)
    = aggW (srcOf (W (Proc.devRef .tc main_arg1))) (dstOf (W (Proc.devRef .tc main_arg1)))
        (degInvOf (dstOf (W (Proc.devRef .tc main_arg1)))) (W (Proc.devRef .tc main_arg0)) := by
  after_results_simp <;> rfl
theorem st0_v25 : after hostOps0 W (Proc.devRef .tc main_v25) = wT (W (Proc.devRef .tc main_arg2)) := by
  after_results_simp <;> rfl
theorem st0_v26 : after hostOps0 W (Proc.devRef .tc main_v26) = wT (W (Proc.devRef .tc main_arg4)) := by
  after_results_simp <;> rfl
theorem st0_v27 : after hostOps0 W (Proc.devRef .tc main_v27) = brow (W (Proc.devRef .tc main_arg3)) := by
  after_results_simp <;> rfl
theorem st0_arg0 : after hostOps0 W (Proc.devRef .tc main_arg0) = W (Proc.devRef .tc main_arg0) := by
  after_results_simp <;> rfl
theorem st0_arg5 : after hostOps0 W (Proc.devRef .tc main_arg5) = W (Proc.devRef .tc main_arg5) := by
  after_results_simp <;> rfl
theorem st0_arg6 : after hostOps0 W (Proc.devRef .tc main_arg6) = W (Proc.devRef .tc main_arg6) := by
  after_results_simp <;> rfl
theorem st0_arg7 : after hostOps0 W (Proc.devRef .tc main_arg7) = W (Proc.devRef .tc main_arg7) := by
  after_results_simp <;> rfl
theorem st0_arg8 : after hostOps0 W (Proc.devRef .tc main_arg8) = W (Proc.devRef .tc main_arg8) := by
  after_results_simp <;> rfl
theorem st0_arg9 : after hostOps0 W (Proc.devRef .tc main_arg9) = W (Proc.devRef .tc main_arg9) := by
  after_results_simp <;> rfl
theorem st0_arg10 : after hostOps0 W (Proc.devRef .tc main_arg10) = W (Proc.devRef .tc main_arg10) := by
  after_results_simp <;> rfl
theorem st0_arg11 : after hostOps0 W (Proc.devRef .tc main_arg11) = W (Proc.devRef .tc main_arg11) := by
  after_results_simp <;> rfl
theorem st0_arg12 : after hostOps0 W (Proc.devRef .tc main_arg12) = W (Proc.devRef .tc main_arg12) := by
  after_results_simp <;> rfl

/-! ## The second stretch -/

theorem st1_v41 : after hostOps1 W (Proc.devRef .tc main_v41) = aggW (W (Proc.devRef .tc main_v1)) (W (Proc.devRef .tc main_v3)) (W (Proc.devRef .tc main_v11)) (W (Proc.devRef .tc main_v28)) := by
  after_results_simp <;> rfl
theorem st1_v42 : after hostOps1 W (Proc.devRef .tc main_v42) = wT (W (Proc.devRef .tc main_arg5)) := by
  after_results_simp <;> rfl
theorem st1_v43 : after hostOps1 W (Proc.devRef .tc main_v43) = wT (W (Proc.devRef .tc main_arg7)) := by
  after_results_simp <;> rfl
theorem st1_v44 : after hostOps1 W (Proc.devRef .tc main_v44) = brow (W (Proc.devRef .tc main_arg6)) := by
  after_results_simp <;> rfl
theorem st1_v28 : after hostOps1 W (Proc.devRef .tc main_v28) = W (Proc.devRef .tc main_v28) := by
  after_results_simp <;> rfl
theorem st1_v1 : after hostOps1 W (Proc.devRef .tc main_v1) = W (Proc.devRef .tc main_v1) := by
  after_results_simp <;> rfl
theorem st1_v3 : after hostOps1 W (Proc.devRef .tc main_v3) = W (Proc.devRef .tc main_v3) := by
  after_results_simp <;> rfl
theorem st1_v11 : after hostOps1 W (Proc.devRef .tc main_v11) = W (Proc.devRef .tc main_v11) := by
  after_results_simp <;> rfl
theorem st1_arg8 : after hostOps1 W (Proc.devRef .tc main_arg8) = W (Proc.devRef .tc main_arg8) := by
  after_results_simp <;> rfl
theorem st1_arg9 : after hostOps1 W (Proc.devRef .tc main_arg9) = W (Proc.devRef .tc main_arg9) := by
  after_results_simp <;> rfl
theorem st1_arg10 : after hostOps1 W (Proc.devRef .tc main_arg10) = W (Proc.devRef .tc main_arg10) := by
  after_results_simp <;> rfl
theorem st1_arg11 : after hostOps1 W (Proc.devRef .tc main_arg11) = W (Proc.devRef .tc main_arg11) := by
  after_results_simp <;> rfl
theorem st1_arg12 : after hostOps1 W (Proc.devRef .tc main_arg12) = W (Proc.devRef .tc main_arg12) := by
  after_results_simp <;> rfl

/-! ## The third stretch -/

theorem st2_v58 : after hostOps2 W (Proc.devRef .tc main_v58) = aggW (W (Proc.devRef .tc main_v1)) (W (Proc.devRef .tc main_v3)) (W (Proc.devRef .tc main_v11)) (W (Proc.devRef .tc main_v45)) := by
  after_results_simp <;> rfl
theorem st2_v59 : after hostOps2 W (Proc.devRef .tc main_v59) = wT (W (Proc.devRef .tc main_arg8)) := by
  after_results_simp <;> rfl
theorem st2_v60 : after hostOps2 W (Proc.devRef .tc main_v60) = wT (W (Proc.devRef .tc main_arg10)) := by
  after_results_simp <;> rfl
theorem st2_v61 : after hostOps2 W (Proc.devRef .tc main_v61) = brow (W (Proc.devRef .tc main_arg9)) := by
  after_results_simp <;> rfl
theorem st2_v45 : after hostOps2 W (Proc.devRef .tc main_v45) = W (Proc.devRef .tc main_v45) := by
  after_results_simp <;> rfl
theorem st2_arg11 : after hostOps2 W (Proc.devRef .tc main_arg11) = W (Proc.devRef .tc main_arg11) := by
  after_results_simp <;> rfl
theorem st2_arg12 : after hostOps2 W (Proc.devRef .tc main_arg12) = W (Proc.devRef .tc main_arg12) := by
  after_results_simp <;> rfl

/-! ## The last stretch -/

theorem st3_v63 : after hostOps3 W (Proc.devRef .tc main_v63) = wTc (W (Proc.devRef .tc main_arg11)) := by
  after_results_simp <;> rfl
theorem st3_v64 : after hostOps3 W (Proc.devRef .tc main_v64) = browc (W (Proc.devRef .tc main_arg12)) := by
  after_results_simp <;> rfl
theorem st3_v62 : after hostOps3 W (Proc.devRef .tc main_v62) = W (Proc.devRef .tc main_v62) := by
  after_results_simp <;> rfl

end Cert.KernelIdeal.HostValue

end
-- ==== Proof.Spec.lean ====
/-
  The network both programs compute, index by index over the extended reals.

  A graph layer takes the node features x [50000, 128] and their neighbourhood means a [50000, 128] and returns, at node
  n and channel j, the rectified value of  (Σ_k a[n,k]·wl[k,j] + b[0,j]) + Σ_k x[n,k]·wr[k,j] ; the third layer adds its
  input back (a residual connection); the classifier is one more matrix product plus a bias row.  The neighbourhood
  mean is a parameter `A` of the model here: both programs compute it by the same host operations, so it is carried
  as one function and never opened.
-/
import Idealize.ShloMosaic.PureOps.Ideal
import Idealize.ShloMosaic.Lib.ValueIdx

noncomputable section

namespace Cert.Sage

open Idealize.ShloMosaic Idealize.ShloMosaic.ValueIdx

/-- Node features: 50000 nodes, 128 channels. -/
abbrev Nodes : Shape := ⟨2, ![50000, 128]⟩
/-- A layer's weight matrix as it enters the products: [in, out] = [128, 128]. -/
abbrev Wts : Shape := ⟨2, ![128, 128]⟩
/-- A layer's bias as a row [1, 128]. -/
abbrev Row : Shape := ⟨2, ![1, 128]⟩
/-- The classifier's weights [128, 40], its bias row [1, 40] and its output [50000, 40]. -/
abbrev WtsC : Shape := ⟨2, ![128, 40]⟩
abbrev RowC : Shape := ⟨2, ![1, 40]⟩
abbrev Logits : Shape := ⟨2, ![50000, 40]⟩

/-- The float zero the rectifier takes the maximum with (the word is never evaluated: it is the same on both sides). -/
abbrev fzero : EReal := Ideal.ofBits .f32 0x00000000#32

/-- One layer: max((a·wl + b) + x·wr, 0) at node `i 0`, channel `i 1`. -/
def layer (a x : Nodes.Idx → EReal) (wl : Wts.Idx → EReal) (b : Row.Idx → EReal) (wr : Wts.Idx → EReal) : Nodes.Idx → EReal :=
  fun i => max (((∑ k : Fin 128, a (ix2 (i 0) k) * wl (ix2 k (i 1))) + b (ix2 (0 : Fin 1) (i 1)))
    + ∑ k : Fin 128, x (ix2 (i 0) k) * wr (ix2 k (i 1))) fzero

/-- The layer with its input added back. -/
def layerRes (a x : Nodes.Idx → EReal) (wl : Wts.Idx → EReal) (b : Row.Idx → EReal) (wr : Wts.Idx → EReal) : Nodes.Idx → EReal :=
  fun i => layer a x wl b wr i + x i

/-- The classifier: v·wc + bc. -/
def classify (v : Nodes.Idx → EReal) (wc : WtsC.Idx → EReal) (bc : RowC.Idx → EReal) : Logits.Idx → EReal :=
  fun i => (∑ k : Fin 128, v (ix2 (i 0) k) * wc (ix2 k (i 1))) + bc (ix2 (0 : Fin 1) (i 1))

/-- The whole network: two layers, a residual layer, the classifier; `A` is the neighbourhood mean. -/
def model (A : (Nodes.Idx → EReal) → Nodes.Idx → EReal) (x : Nodes.Idx → EReal)
    (wl1 : Wts.Idx → EReal) (b1 : Row.Idx → EReal) (wr1 : Wts.Idx → EReal)
    (wl2 : Wts.Idx → EReal) (b2 : Row.Idx → EReal) (wr2 : Wts.Idx → EReal)
    (wl3 : Wts.Idx → EReal) (b3 : Row.Idx → EReal) (wr3 : Wts.Idx → EReal)
    (wc : WtsC.Idx → EReal) (bc : RowC.Idx → EReal) : Logits.Idx → EReal :=
  classify
    (layerRes (A (layer (A (layer (A x) x wl1 b1 wr1)) (layer (A x) x wl1 b1 wr1) wl2 b2 wr2))
      (layer (A (layer (A x) x wl1 b1 wr1)) (layer (A x) x wl1 b1 wr1) wl2 b2 wr2) wl3 b3 wr3)
    wc bc

theorem layer_apply (a x : Nodes.Idx → EReal) (wl : Wts.Idx → EReal) (b : Row.Idx → EReal) (wr : Wts.Idx → EReal)
    (n : Fin 50000) (j : Fin 128) :
    layer a x wl b wr (ix2 n j) = max (((∑ k : Fin 128, a (ix2 n k) * wl (ix2 k j)) + b (ix2 (0 : Fin 1) j))
      + ∑ k : Fin 128, x (ix2 n k) * wr (ix2 k j)) fzero := rfl

theorem layerRes_apply (a x : Nodes.Idx → EReal) (wl : Wts.Idx → EReal) (b : Row.Idx → EReal) (wr : Wts.Idx → EReal)
    (n : Fin 50000) (j : Fin 128) :
    layerRes a x wl b wr (ix2 n j) = max (((∑ k : Fin 128, a (ix2 n k) * wl (ix2 k j)) + b (ix2 (0 : Fin 1) j))
      + ∑ k : Fin 128, x (ix2 n k) * wr (ix2 k j)) fzero + x (ix2 n j) := rfl

theorem classify_apply (v : Nodes.Idx → EReal) (wc : WtsC.Idx → EReal) (bc : RowC.Idx → EReal) (n : Fin 50000) (j : Fin 40) :
    classify v wc bc (ix2 n j) = (∑ k : Fin 128, v (ix2 n k) * wc (ix2 k j)) + bc (ix2 (0 : Fin 1) j) := rfl

end Cert.Sage

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Payload.lean ====
/-
  The arithmetic of the four kernel bodies read at one entry of the block they store, over the extended reals:
  each matrix product into a zero accumulator is a sum over the 128 contracted channels, a change of float format is
  the identity, the bias row is read at its column.
-/
import proofs.«162701_j57921928954040_1_alg».proof.Proof.Gen.KernelIdeal.Skeleton
import proofs.«162701_j57921928954040_1_alg».proof.Proof.Spec
import proofs.«162701_j57921928954040_1_alg».proof.Proof.LibPlainDot
import Idealize.ShloMosaic.Lib.ValueLayout
import Idealize.ShloMosaic.Lib.Pipeline.Value

noncomputable section

namespace Cert.KernelIdeal.Payload

open Idealize.ShloMosaic Idealize.ShloMosaic.ValueIdx
open Cert.KernelIdeal Cert.KernelIdeal.Gen

theorem pay0_apply (v0 v3 : Vec Ideal S2000x128 .f32) (v5 v8 : Vec Ideal S128x128 .f32) (v11 : Vec Ideal S1x128 .f32)
    (p : Fin 2000) (j : Fin 128) :
    k0_pay1 v0 v3 v5 v8 v11 (ix2 p j)
      = max (((∑ k : Fin 128, v0 (ix2 p k) * v5 (ix2 k j)) + v11 (ix2 (0 : Fin 1) j))
          + ∑ k : Fin 128, v3 (ix2 p k) * v8 (ix2 k j)) Cert.Sage.fzero := by
  unfold k0_pay1
  simp only [shapeCast_self]
  rw [maximumf_apply, addf_apply, addf_apply, broadcastTo_1b_ab_apply, broadcast_apply]
  have h1 := Cert.PlainDot.matmul_zero_apply dot_S2000x128_S128x128_S2000x128_1_0_0_1_n_n rfl none
      (truncf .bf16 v0 bitsLt_bf16_f32) (truncf .bf16 v5 bitsLt_bf16_f32) p j
  have h2 := Cert.PlainDot.matmul_zero_apply dot_S2000x128_S128x128_S2000x128_1_0_0_1_n_n rfl none
      (truncf .bf16 v3 bitsLt_bf16_f32) (truncf .bf16 v8 bitsLt_bf16_f32) p j
  exact congrArg₂ max (congrArg₂ (· + ·) (congrArg (· + v11 (ix2 (0 : Fin 1) j)) h1) h2) rfl

theorem pay1_apply (v0 v3 : Vec Ideal S2000x128 .f32) (v6 v9 : Vec Ideal S128x128 .f32) (v12 : Vec Ideal S1x128 .f32)
    (p : Fin 2000) (j : Fin 128) :
    k1_pay1 v0 v3 v6 v9 v12 (ix2 p j)
      = max (((∑ k : Fin 128, v0 (ix2 p k) * v6 (ix2 k j)) + v12 (ix2 (0 : Fin 1) j))
          + ∑ k : Fin 128, v3 (ix2 p k) * v9 (ix2 k j)) Cert.Sage.fzero := by
  unfold k1_pay1
  simp only [shapeCast_self]
  rw [maximumf_apply, addf_apply, addf_apply, broadcastTo_1b_ab_apply, broadcast_apply]
  have h1 := Cert.PlainDot.matmul_zero_apply dot_S2000x128_S128x128_S2000x128_1_0_0_1_n_n rfl none
      (truncf .bf16 v0 bitsLt_bf16_f32) (truncf .bf16 v6 bitsLt_bf16_f32) p j
  have h2 := Cert.PlainDot.matmul_zero_apply dot_S2000x128_S128x128_S2000x128_1_0_0_1_n_n rfl none
      (truncf .bf16 v3 bitsLt_bf16_f32) (truncf .bf16 v9 bitsLt_bf16_f32) p j
  exact congrArg₂ max (congrArg₂ (· + ·) (congrArg (· + v12 (ix2 (0 : Fin 1) j)) h1) h2) rfl

theorem pay2_apply (v0 v3 : Vec Ideal S2000x128 .f32) (v6 v9 : Vec Ideal S128x128 .f32) (v12 : Vec Ideal S1x128 .f32)
    (v21 : Vec Ideal S2000x128 .f32) (p : Fin 2000) (j : Fin 128) :
    k2_pay1 v0 v3 v6 v9 v12 v21 (ix2 p j)
      = max (((∑ k : Fin 128, v0 (ix2 p k) * v6 (ix2 k j)) + v12 (ix2 (0 : Fin 1) j))
          + ∑ k : Fin 128, v3 (ix2 p k) * v9 (ix2 k j)) Cert.Sage.fzero + v21 (ix2 p j) := by
  unfold k2_pay1
  simp only [shapeCast_self]
  rw [addf_apply, maximumf_apply, addf_apply, addf_apply, broadcastTo_1b_ab_apply, broadcast_apply]
  have h1 := Cert.PlainDot.matmul_zero_apply dot_S2000x128_S128x128_S2000x128_1_0_0_1_n_n rfl none
      (truncf .bf16 v0 bitsLt_bf16_f32) (truncf .bf16 v6 bitsLt_bf16_f32) p j
  have h2 := Cert.PlainDot.matmul_zero_apply dot_S2000x128_S128x128_S2000x128_1_0_0_1_n_n rfl none
      (truncf .bf16 v3 bitsLt_bf16_f32) (truncf .bf16 v9 bitsLt_bf16_f32) p j
  exact congrArg (· + v21 (ix2 p j))
    (congrArg₂ max (congrArg₂ (· + ·) (congrArg (· + v12 (ix2 (0 : Fin 1) j)) h1) h2) rfl)

theorem pay3_apply (v0 : Vec Ideal S2000x128 .f32) (v3 : Vec Ideal S128x40 .f32) (v6 : Vec Ideal S1x40 .f32)
    (p : Fin 2000) (j : Fin 40) :
    k3_pay1 v0 v3 v6 (ix2 p j) = (∑ k : Fin 128, v0 (ix2 p k) * v3 (ix2 k j)) + v6 (ix2 (0 : Fin 1) j) := by
  unfold k3_pay1
  simp only [shapeCast_self]
  rw [addf_apply, broadcastTo_1b_ab_apply]
  exact congrArg (· + v6 (ix2 (0 : Fin 1) j))
    (Cert.PlainDot.matmul_zero_apply dot_S2000x128_S128x40_S2000x40_1_0_0_1_n_n rfl none
      (truncf .bf16 v0 bitsLt_bf16_f32) (truncf .bf16 v3 bitsLt_bf16_f32) p j)

end Cert.KernelIdeal.Payload

end
-- ==== Proof.Blocks01.lean ====
/-
  What the first two gridded regions leave in their result arrays, each as ONE function of the arrays the region finds:
  25 row blocks of 2000 nodes, block t written by grid point t, together cover the 50000 rows.
-/
import proofs.«162701_j57921928954040_1_alg».proof.Proof.Gen.KernelIdeal.Frame
import proofs.«162701_j57921928954040_1_alg».proof.Proof.Spec
import proofs.«162701_j57921928954040_1_alg».proof.Proof.Payload
import Idealize.ShloMosaic.Lib.Pipeline.Value

noncomputable section

namespace Cert.KernelIdeal.Blocks

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! ## Region 0 -/

/-- The zero offsets of a whole-buffer access. -/
theorem zero_off0 : (![0, 0] : Fin 2 → Nat) = fun _ => 0 := funext fun a => by fin_cases a <;> rfl

/-- Region 0's block indices at grid point `t`: the two node arrays and the result move down the rows with `t`,
    the weights and the bias row stay at block (0, 0). -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row block `t` of the neighbourhood means: entry (p, k) of the block is entry (2000 t + p, k) of the array. -/
theorem rows0_0 (c : Dev nD) (t : Fin cfg0.N) (y : S2000x128.Idx) (i : S50000x128.Idx)
    (h0 : (i 0).val = 2000 * t.val + (y 0).val) (h1 : (i 1).val = (y 1).val) :
    (iblk0 (F := Ideal) V c 0 t : Vec Ideal S2000x128 .f32) y = (V c main_v24 : S50000x128.Idx → Elt Ideal .f32) i := by
  obtain ⟨e0, e1, -⟩ := block_index0 t
  unfold iblk0
  rw [View.read_apply]
  show V c main_v24 _ = V c main_v24 _
  congr 1
  funext a
  apply Fin.ext
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

/-- Row block `t` of the node features, the same way. -/
theorem rows0_1 (c : Dev nD) (t : Fin cfg0.N) (y : S2000x128.Idx) (i : S50000x128.Idx)
    (h0 : (i 0).val = 2000 * t.val + (y 0).val) (h1 : (i 1).val = (y 1).val) :
    (iblk0 (F := Ideal) V c 1 t : Vec Ideal S2000x128 .f32) y = (V c main_arg0 : S50000x128.Idx → Elt Ideal .f32) i := by
  obtain ⟨-, -, e0, e1, -⟩ := block_index0 t
  unfold iblk0
  rw [View.read_apply]
  show V c main_arg0 _ = V c main_arg0 _
  congr 1
  funext a
  apply Fin.ext
  match a with
  | ⟨0, _⟩ => show win0_1.index t 0 * 2000 + 1 * (y 0).val = (i 0).val; rw [e0, h0]; omega
  | ⟨1, _⟩ => show win0_1.index t 1 * 128 + 1 * (y 1).val = (i 1).val; rw [e1, h1]; omega

/-- The left weights are staged whole at every point. -/
theorem whole0_2 (c : Dev nD) (t : Fin cfg0.N) (y : S128x128.Idx) :
    (iblk0 (F := Ideal) V c 2 t : Vec Ideal S128x128 .f32) y = (V c main_v25 : S128x128.Idx → Elt Ideal .f32) y := by
  obtain ⟨-, -, -, -, e0, e1, -⟩ := block_index0 t
  unfold iblk0
  rw [View.read_apply]
  show V c main_v25 _ = V c main_v25 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The bias row is staged whole at every point. -/
theorem whole0_3 (c : Dev nD) (t : Fin cfg0.N) (y : S1x128.Idx) :
    (iblk0 (F := Ideal) V c 3 t : Vec Ideal S1x128 .f32) y = (V c main_v27 : S1x128.Idx → Elt Ideal .f32) y := by
  obtain ⟨-, -, -, -, -, -, e0, e1, -⟩ := block_index0 t
  unfold iblk0
  rw [View.read_apply]
  show V c main_v27 _ = V c main_v27 _
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

/-- The right weights are staged whole at every point. -/
theorem whole0_4 (c : Dev nD) (t : Fin cfg0.N) (y : S128x128.Idx) :
    (iblk0 (F := Ideal) V c 4 t : Vec Ideal S128x128 .f32) y = (V c main_v26 : S128x128.Idx → Elt Ideal .f32) y := by
  obtain ⟨-, -, -, -, -, -, -, -, e0, e1, -⟩ := block_index0 t
  unfold iblk0
  rw [View.read_apply]
  show V c main_v26 _ = V c main_v26 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- One entry of the body's result, from blocks that agree with the arrays on the row and column it reads:
    the layer at node `n`, channel `j`. -/
theorem entry0 (x0 x1 : Vec Ideal S2000x128 .f32) (x2 x4 : Vec Ideal S128x128 .f32) (x3 : Vec Ideal S1x128 .f32)
    (a x : Cert.Sage.Nodes.Idx → EReal) (wl : Cert.Sage.Wts.Idx → EReal) (b : Cert.Sage.Row.Idx → EReal)
    (wr : Cert.Sage.Wts.Idx → EReal) (n : Fin 50000) (p : Fin 2000) (j : Fin 128)
    (h0 : ∀ k : Fin 128, x0 (ValueIdx.ix2 p k) = a (ValueIdx.ix2 n k))
    (h1 : ∀ k : Fin 128, x1 (ValueIdx.ix2 p k) = x (ValueIdx.ix2 n k))
    (h2 : ∀ k : Fin 128, x2 (ValueIdx.ix2 k j) = wl (ValueIdx.ix2 k j))
    (h3 : x3 (ValueIdx.ix2 (0 : Fin 1) j) = b (ValueIdx.ix2 (0 : Fin 1) j))
    (h4 : ∀ k : Fin 128, x4 (ValueIdx.ix2 k j) = wr (ValueIdx.ix2 k j)) :
    k0_pay1 x0 x1 x2 x4 x3 (ValueIdx.ix2 p j) = Cert.Sage.layer a x wl b wr (ValueIdx.ix2 n j) := by
  rw [Cert.KernelIdeal.Payload.pay0_apply, Cert.Sage.layer_apply, h3]
  congr 1
  congr 1
  · congr 1
    exact Finset.sum_congr rfl fun k _ => by rw [h0, h2]
  · exact Finset.sum_congr rfl fun k _ => by rw [h1, h4]

/-- What grid point `t` writes back is row block `t` of the layer of the arrays the region finds: entry (p, j) of the
    body's result reads row p of the two staged node blocks, which is row 2000 t + p of the arrays, and column j of the
    weights and of the bias row, which are staged whole. -/
theorem flushed0 (c : Dev nD) (t : Fin cfg0.N) :
    (dat0 (F := Ideal) V c).flushed 5 t = ((cfg0.win 5).blk t).view.read (Elt Ideal)
      (Cert.Sage.layer (V c main_v24) (V c main_arg0) (V c main_v25) (V c main_v27) (V c main_v26)) := by
  have hN : cfg0.N = 25 := N_0
  obtain ⟨-, -, -, -, -, -, -, -, -, -, e0, e1⟩ := block_index0 t
  show (cfg0.win 5).cut (grid0.coords t) ((dat0 (F := Ideal) V c).after 5 t) = _
  rw [after0_5]
  unfold out0_5
  rw [View.canon_unit_zero zero_off0]
  simp only [View.ld_unit_zero (S := S2000x128) zero_off0, View.ld_unit_zero (S := S128x128) zero_off0,
    View.ld_unit_zero (S := S1x128) zero_off0]
  funext y
  obtain ⟨p, j, rfl⟩ : ∃ (p : Fin 2000) (j : Fin 128), y = ValueIdx.ix2 p j := ⟨y 0, y 1, ValueIdx.eq_ix2 y⟩
  have hn : 2000 * t.val + p.val < 50000 := by have := t.isLt; have := p.isLt; omega
  have hemb : ((cfg0.win 5).blk t).view.emb (ValueIdx.ix2 p j)
      = (ValueIdx.ix2 (⟨2000 * t.val + p.val, hn⟩ : Fin 50000) j : S50000x128.Idx) := by
    funext a
    apply Fin.ext
    match a with
    | ⟨0, _⟩ => show win0_5.index t 0 * 2000 + 1 * p.val = 2000 * t.val + p.val; rw [e0]; omega
    | ⟨1, _⟩ => show win0_5.index t 1 * 128 + 1 * j.val = j.val; rw [e1]; omega
  rw [View.read_apply]
  show k0_pay1 (F := Ideal) _ _ _ _ _ (ValueIdx.ix2 p j)
    = Cert.Sage.layer _ _ _ _ _ (((cfg0.win 5).blk t).view.emb (ValueIdx.ix2 p j))
  rw [hemb]
  exact entry0 (iblk0 (F := Ideal) V c 0 t) (iblk0 (F := Ideal) V c 1 t) (iblk0 (F := Ideal) V c 2 t)
    (iblk0 (F := Ideal) V c 4 t) (iblk0 (F := Ideal) V c 3 t)
    (V c main_v24) (V c main_arg0) (V c main_v25) (V c main_v27) (V c main_v26) ⟨2000 * t.val + p.val, hn⟩ p j
    (fun k => rows0_0 V c t (ValueIdx.ix2 p k) (ValueIdx.ix2 (⟨2000 * t.val + p.val, hn⟩ : Fin 50000) k) rfl rfl)
    (fun k => rows0_1 V c t (ValueIdx.ix2 p k) (ValueIdx.ix2 (⟨2000 * t.val + p.val, hn⟩ : Fin 50000) k) rfl rfl)
    (fun k => whole0_2 V c t (ValueIdx.ix2 k j)) (whole0_3 V c t (ValueIdx.ix2 (0 : Fin 1) j))
    (fun k => whole0_4 V c t (ValueIdx.ix2 k j))

/-- The 25 row blocks cover the 50000 rows: row r lies in the block of grid point r / 2000. -/
theorem cover0 (i : S50000x128.Idx) :
    ∃ t : Fin cfg0.N, (cfg0.win 5).flush t = true ∧ i ∈ ((cfg0.win 5).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, (by omega : (i 0).val / 2000 < 25).trans_eq hN.symm⟩, rfl⟩
  obtain ⟨-, -, -, -, -, -, -, -, -, -, e0, e1⟩ := block_index0 t
  refine ⟨t, flush0_5 t, ?_⟩
  show i ∈ ((View.whole main_v28).slice (win0_5.rect t)).set
  rw [View.set_slice_whole, Rect.mem_set_unit]
  intro a
  match a with
  | ⟨0, _⟩ =>
    show win0_5.index t 0 * 2000 ≤ (i 0).val ∧ (i 0).val < win0_5.index t 0 * 2000 + 2000
    rw [e0, ht]; omega
  | ⟨1, _⟩ =>
    show win0_5.index t 1 * 128 ≤ (i 1).val ∧ (i 1).val < win0_5.index t 1 * 128 + 128
    rw [e1]; omega

theorem final0 (c : Dev nD) : (dat0 (F := Ideal) V c).arrAt 5 cfg0.N
    = Cert.Sage.layer (V c main_v24) (V c main_arg0) (V c main_v25) (V c main_v27) (V c main_v26) :=
  (dat0 (F := Ideal) V c).arrAt_eq_of_cover 5 _ (fun t _ => flushed0 V c t) cover0

/-! ## Region 1 -/

/-- The zero offsets of a whole-buffer access. -/
theorem zero_off1 : (![0, 0] : Fin 2 → Nat) = fun _ => 0 := funext fun a => by fin_cases a <;> rfl

/-- Region 1's block indices at grid point `t`: the two node arrays and the result move down the rows with `t`,
    the weights and the bias row stay at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row block `t` of the neighbourhood means: entry (p, k) of the block is entry (2000 t + p, k) of the array. -/
theorem rows1_0 (c : Dev nD) (t : Fin cfg1.N) (y : S2000x128.Idx) (i : S50000x128.Idx)
    (h0 : (i 0).val = 2000 * t.val + (y 0).val) (h1 : (i 1).val = (y 1).val) :
    (iblk1 (F := Ideal) V c 0 t : Vec Ideal S2000x128 .f32) y = (V c main_v41 : S50000x128.Idx → Elt Ideal .f32) i := by
  obtain ⟨e0, e1, -⟩ := block_index1 t
  unfold iblk1
  rw [View.read_apply]
  show V c main_v41 _ = V c main_v41 _
  congr 1
  funext a
  apply Fin.ext
  match a with
  | ⟨0, _⟩ => show win1_0.index t 0 * 2000 + 1 * (y 0).val = (i 0).val; rw [e0, h0]; omega
  | ⟨1, _⟩ => show win1_0.index t 1 * 128 + 1 * (y 1).val = (i 1).val; rw [e1, h1]; omega

/-- Row block `t` of the node features, the same way. -/
theorem rows1_1 (c : Dev nD) (t : Fin cfg1.N) (y : S2000x128.Idx) (i : S50000x128.Idx)
    (h0 : (i 0).val = 2000 * t.val + (y 0).val) (h1 : (i 1).val = (y 1).val) :
    (iblk1 (F := Ideal) V c 1 t : Vec Ideal S2000x128 .f32) y = (V c main_v28 : S50000x128.Idx → Elt Ideal .f32) i := by
  obtain ⟨-, -, e0, e1, -⟩ := block_index1 t
  unfold iblk1
  rw [View.read_apply]
  show V c main_v28 _ = V c main_v28 _
  congr 1
  funext a
  apply Fin.ext
  match a with
  | ⟨0, _⟩ => show win1_1.index t 0 * 2000 + 1 * (y 0).val = (i 0).val; rw [e0, h0]; omega
  | ⟨1, _⟩ => show win1_1.index t 1 * 128 + 1 * (y 1).val = (i 1).val; rw [e1, h1]; omega

/-- The left weights are staged whole at every point. -/
theorem whole1_2 (c : Dev nD) (t : Fin cfg1.N) (y : S128x128.Idx) :
    (iblk1 (F := Ideal) V c 2 t : Vec Ideal S128x128 .f32) y = (V c main_v42 : S128x128.Idx → Elt Ideal .f32) y := by
  obtain ⟨-, -, -, -, e0, e1, -⟩ := block_index1 t
  unfold iblk1
  rw [View.read_apply]
  show V c main_v42 _ = V c main_v42 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The bias row is staged whole at every point. -/
theorem whole1_3 (c : Dev nD) (t : Fin cfg1.N) (y : S1x128.Idx) :
    (iblk1 (F := Ideal) V c 3 t : Vec Ideal S1x128 .f32) y = (V c main_v44 : S1x128.Idx → Elt Ideal .f32) y := by
  obtain ⟨-, -, -, -, -, -, e0, e1, -⟩ := block_index1 t
  unfold iblk1
  rw [View.read_apply]
  show V c main_v44 _ = V c main_v44 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- The right weights are staged whole at every point. -/
theorem whole1_4 (c : Dev nD) (t : Fin cfg1.N) (y : S128x128.Idx) :
    (iblk1 (F := Ideal) V c 4 t : Vec Ideal S128x128 .f32) y = (V c main_v43 : S128x128.Idx → Elt Ideal .f32) y := by
  obtain ⟨-, -, -, -, -, -, -, -, e0, e1, -⟩ := block_index1 t
  unfold iblk1
  rw [View.read_apply]
  show V c main_v43 _ = V c main_v43 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- One entry of the body's result, from blocks that agree with the arrays on the row and column it reads:
    the layer at node `n`, channel `j`. -/
theorem entry1 (x0 x1 : Vec Ideal S2000x128 .f32) (x2 x4 : Vec Ideal S128x128 .f32) (x3 : Vec Ideal S1x128 .f32)
    (a x : Cert.Sage.Nodes.Idx → EReal) (wl : Cert.Sage.Wts.Idx → EReal) (b : Cert.Sage.Row.Idx → EReal)
    (wr : Cert.Sage.Wts.Idx → EReal) (n : Fin 50000) (p : Fin 2000) (j : Fin 128)
    (h0 : ∀ k : Fin 128, x0 (ValueIdx.ix2 p k) = a (ValueIdx.ix2 n k))
    (h1 : ∀ k : Fin 128, x1 (ValueIdx.ix2 p k) = x (ValueIdx.ix2 n k))
    (h2 : ∀ k : Fin 128, x2 (ValueIdx.ix2 k j) = wl (ValueIdx.ix2 k j))
    (h3 : x3 (ValueIdx.ix2 (0 : Fin 1) j) = b (ValueIdx.ix2 (0 : Fin 1) j))
    (h4 : ∀ k : Fin 128, x4 (ValueIdx.ix2 k j) = wr (ValueIdx.ix2 k j)) :
    k1_pay1 x0 x1 x2 x4 x3 (ValueIdx.ix2 p j) = Cert.Sage.layer a x wl b wr (ValueIdx.ix2 n j) := by
  rw [Cert.KernelIdeal.Payload.pay1_apply, Cert.Sage.layer_apply, h3]
  congr 1
  congr 1
  · congr 1
    exact Finset.sum_congr rfl fun k _ => by rw [h0, h2]
  · exact Finset.sum_congr rfl fun k _ => by rw [h1, h4]

/-- What grid point `t` writes back is row block `t` of the layer of the arrays the region finds: entry (p, j) of the
    body's result reads row p of the two staged node blocks, which is row 2000 t + p of the arrays, and column j of the
    weights and of the bias row, which are staged whole. -/
theorem flushed1 (c : Dev nD) (t : Fin cfg1.N) :
    (dat1 (F := Ideal) V c).flushed 5 t = ((cfg1.win 5).blk t).view.read (Elt Ideal)
      (Cert.Sage.layer (V c main_v41) (V c main_v28) (V c main_v42) (V c main_v44) (V c main_v43)) := by
  have hN : cfg1.N = 25 := N_1
  obtain ⟨-, -, -, -, -, -, -, -, -, -, e0, e1⟩ := block_index1 t
  show (cfg1.win 5).cut (grid1.coords t) ((dat1 (F := Ideal) V c).after 5 t) = _
  rw [after1_5]
  unfold out1_5
  rw [View.canon_unit_zero zero_off1]
  simp only [View.ld_unit_zero (S := S2000x128) zero_off1, View.ld_unit_zero (S := S128x128) zero_off1,
    View.ld_unit_zero (S := S1x128) zero_off1]
  funext y
  obtain ⟨p, j, rfl⟩ : ∃ (p : Fin 2000) (j : Fin 128), y = ValueIdx.ix2 p j := ⟨y 0, y 1, ValueIdx.eq_ix2 y⟩
  have hn : 2000 * t.val + p.val < 50000 := by have := t.isLt; have := p.isLt; omega
  have hemb : ((cfg1.win 5).blk t).view.emb (ValueIdx.ix2 p j)
      = (ValueIdx.ix2 (⟨2000 * t.val + p.val, hn⟩ : Fin 50000) j : S50000x128.Idx) := by
    funext a
    apply Fin.ext
    match a with
    | ⟨0, _⟩ => show win1_5.index t 0 * 2000 + 1 * p.val = 2000 * t.val + p.val; rw [e0]; omega
    | ⟨1, _⟩ => show win1_5.index t 1 * 128 + 1 * j.val = j.val; rw [e1]; omega
  rw [View.read_apply]
  show k1_pay1 (F := Ideal) _ _ _ _ _ (ValueIdx.ix2 p j)
    = Cert.Sage.layer _ _ _ _ _ (((cfg1.win 5).blk t).view.emb (ValueIdx.ix2 p j))
  rw [hemb]
  exact entry1 (iblk1 (F := Ideal) V c 0 t) (iblk1 (F := Ideal) V c 1 t) (iblk1 (F := Ideal) V c 2 t)
    (iblk1 (F := Ideal) V c 4 t) (iblk1 (F := Ideal) V c 3 t)
    (V c main_v41) (V c main_v28) (V c main_v42) (V c main_v44) (V c main_v43) ⟨2000 * t.val + p.val, hn⟩ p j
    (fun k => rows1_0 V c t (ValueIdx.ix2 p k) (ValueIdx.ix2 (⟨2000 * t.val + p.val, hn⟩ : Fin 50000) k) rfl rfl)
    (fun k => rows1_1 V c t (ValueIdx.ix2 p k) (ValueIdx.ix2 (⟨2000 * t.val + p.val, hn⟩ : Fin 50000) k) rfl rfl)
    (fun k => whole1_2 V c t (ValueIdx.ix2 k j)) (whole1_3 V c t (ValueIdx.ix2 (0 : Fin 1) j))
    (fun k => whole1_4 V c t (ValueIdx.ix2 k j))

/-- The 25 row blocks cover the 50000 rows: row r lies in the block of grid point r / 2000. -/
theorem cover1 (i : S50000x128.Idx) :
    ∃ t : Fin cfg1.N, (cfg1.win 5).flush t = true ∧ i ∈ ((cfg1.win 5).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, (by omega : (i 0).val / 2000 < 25).trans_eq hN.symm⟩, rfl⟩
  obtain ⟨-, -, -, -, -, -, -, -, -, -, e0, e1⟩ := block_index1 t
  refine ⟨t, flush1_5 t, ?_⟩
  show i ∈ ((View.whole main_v45).slice (win1_5.rect t)).set
  rw [View.set_slice_whole, Rect.mem_set_unit]
  intro a
  match a with
  | ⟨0, _⟩ =>
    show win1_5.index t 0 * 2000 ≤ (i 0).val ∧ (i 0).val < win1_5.index t 0 * 2000 + 2000
    rw [e0, ht]; omega
  | ⟨1, _⟩ =>
    show win1_5.index t 1 * 128 ≤ (i 1).val ∧ (i 1).val < win1_5.index t 1 * 128 + 128
    rw [e1]; omega

theorem final1 (c : Dev nD) : (dat1 (F := Ideal) V c).arrAt 5 cfg1.N
    = Cert.Sage.layer (V c main_v41) (V c main_v28) (V c main_v42) (V c main_v44) (V c main_v43) :=
  (dat1 (F := Ideal) V c).arrAt_eq_of_cover 5 _ (fun t _ => flushed1 V c t) cover1

end Cert.KernelIdeal.Blocks

end
-- ==== Proof.Blocks23.lean ====
/-
  What the residual layer's region and the classifier's region leave in their result arrays, each as ONE function of
  the arrays the region finds: 25 row blocks of 2000 nodes, block t written by grid point t, together cover the 50000 rows.
-/
import proofs.«162701_j57921928954040_1_alg».proof.Proof.Gen.KernelIdeal.Frame
import proofs.«162701_j57921928954040_1_alg».proof.Proof.Spec
import proofs.«162701_j57921928954040_1_alg».proof.Proof.Payload
import Idealize.ShloMosaic.Lib.Pipeline.Value

noncomputable section

namespace Cert.KernelIdeal.Blocks

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

open Idealize.ShloMosaic.ValueIdx in
/-- Region 2 at one entry: the body's arithmetic on blocks that hold the arrays' rows is the residual layer there. -/
theorem point2 (a x : Cert.Sage.Nodes.Idx → EReal) (wl wr : Cert.Sage.Wts.Idx → EReal) (b : Cert.Sage.Row.Idx → EReal)
    (x0 x1 : Vec Ideal S2000x128 .f32) (x2 x4 : Vec Ideal S128x128 .f32) (x3 : Vec Ideal S1x128 .f32)
    (n : Fin 50000) (p : Fin 2000)
    (h0 : ∀ k : Fin 128, x0 (ix2 p k) = a (ix2 n k))
    (h1 : ∀ k : Fin 128, x1 (ix2 p k) = x (ix2 n k))
    (h2 : x2 = wl) (h3 : x3 = b) (h4 : x4 = wr) (j : Fin 128) :
    k2_pay1 x0 x1 x2 x4 x3 x1 (ix2 p j) = Cert.Sage.layerRes a x wl b wr (ix2 n j) := by
  subst h2 h3 h4
  rw [Cert.KernelIdeal.Payload.pay2_apply, Cert.Sage.layerRes_apply]
  simp only [h0, h1]

theorem zero_offsets2 : (![0, 0] : Fin 2 → Nat) = fun _ => 0 := funext fun a => by fin_cases a <;> rfl

/-- Region 2's block index maps over the grid: the node arrays and the result move one row block per point, the
    weights and the bias stay whole. -/
theorem idx_facts2 : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = t.val ∧ win2_5.index t (1 : Fin 2) = 0 :=
  (by decide +kernel : ∀ t : Fin grid2.N, _)

open Idealize.ShloMosaic.ValueIdx in
/-- The same at an entry of a row block: blocks whose rows 0 … 1999 are the arrays' rows 2000·tv … 2000·tv + 1999. -/
theorem block2 (a x : Cert.Sage.Nodes.Idx → EReal) (wl wr : Cert.Sage.Wts.Idx → EReal) (b : Cert.Sage.Row.Idx → EReal)
    (x0 x1 : Vec Ideal S2000x128 .f32) (x2 x4 : Vec Ideal S128x128 .f32) (x3 : Vec Ideal S1x128 .f32) (tv : Nat)
    (h0 : ∀ (y : S2000x128.Idx) (i : S50000x128.Idx), (i 0).val = 2000 * tv + (y 0).val → (i 1).val = (y 1).val → x0 y = a i)
    (h1 : ∀ (y : S2000x128.Idx) (i : S50000x128.Idx), (i 0).val = 2000 * tv + (y 0).val → (i 1).val = (y 1).val → x1 y = x i)
    (h2 : x2 = wl) (h3 : x3 = b) (h4 : x4 = wr)
    (y : S2000x128.Idx) (i : S50000x128.Idx) (hi0 : (i 0).val = 2000 * tv + (y 0).val) (hi1 : (i 1).val = (y 1).val) :
    k2_pay1 x0 x1 x2 x4 x3 x1 y = Cert.Sage.layerRes a x wl b wr i := by
  have hy : y = ix2 (⟨(y 0).val, idx2_lt0 y⟩ : Fin 2000) (⟨(y 1).val, idx2_lt1 y⟩ : Fin 128) := by
    funext d; match d with | ⟨0, _⟩ => rfl | ⟨1, _⟩ => rfl
  have hi : i = ix2 (⟨(i 0).val, idx2_lt0 i⟩ : Fin 50000) (⟨(y 1).val, idx2_lt1 y⟩ : Fin 128) := by
    funext d; match d with | ⟨0, _⟩ => rfl | ⟨1, _⟩ => exact Fin.ext hi1
  rw [hy, hi]
  exact point2 a x wl wr b x0 x1 x2 x4 x3 _ _ (fun k => h0 _ _ hi0 rfl) (fun k => h1 _ _ hi0 rfl) h2 h3 h4 _

/-- Window 0's block at point t is rows 2000t … 2000t + 1999 of its array. -/
theorem iblk2_0_apply (c : Dev nD) (t : Fin cfg2.N) (y : S2000x128.Idx) (i : S50000x128.Idx)
    (h0 : (i 0).val = 2000 * t.val + (y 0).val) (h1 : (i 1).val = (y 1).val) :
    (iblk2 (F := Ideal) V c 0 t : Vec Ideal S2000x128 .f32) y = (V c main_v58 : S50000x128.Idx → EReal) i := by
  obtain ⟨e0, e1, -⟩ := idx_facts2 t
  unfold iblk2
  rw [View.read_apply]
  show V c main_v58 _ = V c main_v58 _
  congr 1
  funext a
  apply Fin.ext
  match a with
  | ⟨0, _⟩ => show win2_0.index t 0 * 2000 + 1 * (y 0).val = (i 0).val; rw [e0, h0]; omega
  | ⟨1, _⟩ => show win2_0.index t 1 * 128 + 1 * (y 1).val = (i 1).val; rw [e1, h1]; omega

/-- Window 1's block at point t is rows 2000t … 2000t + 1999 of its array. -/
theorem iblk2_1_apply (c : Dev nD) (t : Fin cfg2.N) (y : S2000x128.Idx) (i : S50000x128.Idx)
    (h0 : (i 0).val = 2000 * t.val + (y 0).val) (h1 : (i 1).val = (y 1).val) :
    (iblk2 (F := Ideal) V c 1 t : Vec Ideal S2000x128 .f32) y = (V c main_v45 : S50000x128.Idx → EReal) i := by
  obtain ⟨-, -, e0, e1, -⟩ := idx_facts2 t
  unfold iblk2
  rw [View.read_apply]
  show V c main_v45 _ = V c main_v45 _
  congr 1
  funext a
  apply Fin.ext
  match a with
  | ⟨0, _⟩ => show win2_1.index t 0 * 2000 + 1 * (y 0).val = (i 0).val; rw [e0, h0]; omega
  | ⟨1, _⟩ => show win2_1.index t 1 * 128 + 1 * (y 1).val = (i 1).val; rw [e1, h1]; omega

/-- Windows 2, 3 and 4 (the two weight matrices and the bias row): the block at every point is the whole array. -/
theorem iblk2_2_eq (c : Dev nD) (t : Fin cfg2.N) :
    (iblk2 (F := Ideal) V c 2 t : Vec Ideal S128x128 .f32) = (V c main_v59 : S128x128.Idx → EReal) := by
  obtain ⟨-, -, -, -, e0, e1, -⟩ := idx_facts2 t
  funext y
  unfold iblk2
  rw [View.read_apply]
  show V c main_v59 _ = V c main_v59 _
  congr 1
  funext a
  apply Fin.ext
  match a with
  | ⟨0, _⟩ => show win2_2.index t 0 * 128 + 1 * (y 0).val = (y 0).val; rw [e0]; omega
  | ⟨1, _⟩ => show win2_2.index t 1 * 128 + 1 * (y 1).val = (y 1).val; rw [e1]; omega

theorem iblk2_3_eq (c : Dev nD) (t : Fin cfg2.N) :
    (iblk2 (F := Ideal) V c 3 t : Vec Ideal S1x128 .f32) = (V c main_v61 : S1x128.Idx → EReal) := by
  obtain ⟨-, -, -, -, -, -, e0, e1, -⟩ := idx_facts2 t
  funext y
  unfold iblk2
  rw [View.read_apply]
  show V c main_v61 _ = V c main_v61 _
  congr 1
  funext a
  apply Fin.ext
  match a with
  | ⟨0, _⟩ => show win2_3.index t 0 * 1 + 1 * (y 0).val = (y 0).val; rw [e0]; omega
  | ⟨1, _⟩ => show win2_3.index t 1 * 128 + 1 * (y 1).val = (y 1).val; rw [e1]; omega

theorem iblk2_4_eq (c : Dev nD) (t : Fin cfg2.N) :
    (iblk2 (F := Ideal) V c 4 t : Vec Ideal S128x128 .f32) = (V c main_v60 : S128x128.Idx → EReal) := by
  obtain ⟨-, -, -, -, -, -, -, -, e0, e1, -⟩ := idx_facts2 t
  funext y
  unfold iblk2
  rw [View.read_apply]
  show V c main_v60 _ = V c main_v60 _
  congr 1
  funext a
  apply Fin.ext
  match a with
  | ⟨0, _⟩ => show win2_4.index t 0 * 128 + 1 * (y 0).val = (y 0).val; rw [e0]; omega
  | ⟨1, _⟩ => show win2_4.index t 1 * 128 + 1 * (y 1).val = (y 1).val; rw [e1]; omega

/-- What point t writes back is block t of the residual layer of the arrays the region finds. -/
theorem flushed2_eq (c : Dev nD) (t : Fin cfg2.N) :
    (dat2 (F := Ideal) V c).flushed 5 t = ((cfg2.win 5).blk t).view.read (Elt Ideal)
      (Cert.Sage.layerRes (V c main_v58) (V c main_v45) (V c main_v59) (V c main_v61) (V c main_v60)) := by
  show (cfg2.win 5).cut (grid2.coords t) ((dat2 V c).after 5 t) = _
  rw [after2_5]
  unfold out2_5
  rw [View.canon_unit_zero zero_offsets2]
  simp only [View.ld_unit_zero (S := S2000x128) zero_offsets2, View.ld_unit_zero (S := S128x128) zero_offsets2,
    View.ld_unit_zero (S := S1x128) zero_offsets2]
  obtain ⟨-, -, -, -, -, -, -, -, -, -, e0, e1⟩ := idx_facts2 t
  funext y
  refine block2 (V c main_v58) (V c main_v45) (V c main_v59) (V c main_v60) (V c main_v61)
    (iblk2 V c 0 t) (iblk2 V c 1 t) (iblk2 V c 2 t) (iblk2 V c 4 t) (iblk2 V c 3 t) t.val
    (fun y i h0 h1 => iblk2_0_apply V c t y i h0 h1) (fun y i h0 h1 => iblk2_1_apply V c t y i h0 h1)
    (iblk2_2_eq V c t) (iblk2_3_eq V c t) (iblk2_4_eq V c t) y (((cfg2.win 5).blk t).view.emb y) ?_ ?_
  · show win2_5.index t 0 * 2000 + 1 * (y 0).val = 2000 * t.val + (y 0).val
    rw [e0]; omega
  · show win2_5.index t 1 * 128 + 1 * (y 1).val = (y 1).val
    rw [e1]; omega

/-- Every row lies in the block of the point numbered by its row block: the 25 blocks cover the array. -/
theorem cover2 (i : S50000x128.Idx) :
    ∃ t : Fin cfg2.N, (cfg2.win 5).flush t = true ∧ i ∈ ((cfg2.win 5).blk t).view.set := by
  have hN : cfg2.N = 25 := N_2
  have hi0 : (i 0 : Nat) < 50000 := (i 0).isLt
  have hi1 : (i 1 : Nat) < 128 := (i 1).isLt
  have ht : (i 0).val / 2000 < cfg2.N := by rw [hN]; omega
  obtain ⟨-, -, -, -, -, -, -, -, -, -, e0, e1⟩ := idx_facts2 ⟨(i 0).val / 2000, ht⟩
  have e0' : win2_5.index ⟨(i 0).val / 2000, ht⟩ 0 = (i 0).val / 2000 := e0
  refine ⟨⟨(i 0).val / 2000, ht⟩, flush2_5 _, ?_⟩
  show i ∈ ((View.whole main_v62).slice (win2_5.rect ⟨(i 0).val / 2000, ht⟩)).set
  rw [View.set_slice_whole, Rect.mem_set_unit]
  intro a
  match a with
  | ⟨0, _⟩ =>
    show win2_5.index ⟨(i 0).val / 2000, ht⟩ 0 * 2000 ≤ (i 0 : Nat) ∧ (i 0 : Nat) < win2_5.index ⟨(i 0).val / 2000, ht⟩ 0 * 2000 + 2000
    rw [e0']; omega
  | ⟨1, _⟩ =>
    show win2_5.index ⟨(i 0).val / 2000, ht⟩ 1 * 128 ≤ (i 1 : Nat) ∧ (i 1 : Nat) < win2_5.index ⟨(i 0).val / 2000, ht⟩ 1 * 128 + 128
    rw [e1]; omega

theorem final2 (c : Dev nD) : (dat2 (F := Ideal) V c).arrAt 5 cfg2.N
    = Cert.Sage.layerRes (V c main_v58) (V c main_v45) (V c main_v59) (V c main_v61) (V c main_v60) :=
  (dat2 V c).arrAt_eq_of_cover 5 _ (fun t _ => flushed2_eq V c t) cover2

open Idealize.ShloMosaic.ValueIdx in
/-- Region 3 at one entry: the body's arithmetic on blocks that hold the arrays' rows is the classifier there. -/
theorem point3 (v : Cert.Sage.Nodes.Idx → EReal) (wc : Cert.Sage.WtsC.Idx → EReal) (bc : Cert.Sage.RowC.Idx → EReal)
    (x0 : Vec Ideal S2000x128 .f32) (x1 : Vec Ideal S128x40 .f32) (x2 : Vec Ideal S1x40 .f32)
    (n : Fin 50000) (p : Fin 2000)
    (h0 : ∀ k : Fin 128, x0 (ix2 p k) = v (ix2 n k))
    (h1 : x1 = wc) (h2 : x2 = bc) (j : Fin 40) :
    k3_pay1 x0 x1 x2 (ix2 p j) = Cert.Sage.classify v wc bc (ix2 n j) := by
  subst h1 h2
  rw [Cert.KernelIdeal.Payload.pay3_apply, Cert.Sage.classify_apply]
  simp only [h0]

open Idealize.ShloMosaic.ValueIdx in
/-- The same at an entry of a row block: a block whose rows 0 … 1999 are the array's rows 2000·tv … 2000·tv + 1999. -/
theorem block3 (v : Cert.Sage.Nodes.Idx → EReal) (wc : Cert.Sage.WtsC.Idx → EReal) (bc : Cert.Sage.RowC.Idx → EReal)
    (x0 : Vec Ideal S2000x128 .f32) (x1 : Vec Ideal S128x40 .f32) (x2 : Vec Ideal S1x40 .f32) (tv : Nat)
    (h0 : ∀ (y : S2000x128.Idx) (i : S50000x128.Idx), (i 0).val = 2000 * tv + (y 0).val → (i 1).val = (y 1).val → x0 y = v i)
    (h1 : x1 = wc) (h2 : x2 = bc)
    (y : S2000x40.Idx) (i : S50000x40.Idx) (hi0 : (i 0).val = 2000 * tv + (y 0).val) (hi1 : (i 1).val = (y 1).val) :
    k3_pay1 x0 x1 x2 y = Cert.Sage.classify v wc bc i := by
  have hy : y = ix2 (⟨(y 0).val, idx2_lt0 y⟩ : Fin 2000) (⟨(y 1).val, idx2_lt1 y⟩ : Fin 40) := by
    funext d; match d with | ⟨0, _⟩ => rfl | ⟨1, _⟩ => rfl
  have hi : i = ix2 (⟨(i 0).val, idx2_lt0 i⟩ : Fin 50000) (⟨(y 1).val, idx2_lt1 y⟩ : Fin 40) := by
    funext d; match d with | ⟨0, _⟩ => rfl | ⟨1, _⟩ => exact Fin.ext hi1
  rw [hy, hi]
  exact point3 v wc bc x0 x1 x2 _ _ (fun k => h0 _ _ hi0 rfl) h1 h2 _

theorem zero_offsets3 : (![0, 0] : Fin 2 → Nat) = fun _ => 0 := funext fun a => by fin_cases a <;> rfl

/-- Region 3's block index maps over the grid: the node array and the result move one row block per point, the
    weights and the bias stay whole. -/
theorem idx_facts3 : ∀ t : Fin cfg3.N,
    win3_0.index t (0 : Fin 2) = t.val ∧ win3_0.index t (1 : Fin 2) = 0
  ∧ win3_1.index t (0 : Fin 2) = 0 ∧ win3_1.index t (1 : Fin 2) = 0
  ∧ win3_2.index t (0 : Fin 2) = 0 ∧ win3_2.index t (1 : Fin 2) = 0
  ∧ win3_3.index t (0 : Fin 2) = t.val ∧ win3_3.index t (1 : Fin 2) = 0 :=
  (by decide +kernel : ∀ t : Fin grid3.N, _)

/-- Window 0's block at point t is rows 2000t … 2000t + 1999 of its array. -/
theorem iblk3_0_apply (c : Dev nD) (t : Fin cfg3.N) (y : S2000x128.Idx) (i : S50000x128.Idx)
    (h0 : (i 0).val = 2000 * t.val + (y 0).val) (h1 : (i 1).val = (y 1).val) :
    (iblk3 (F := Ideal) V c 0 t : Vec Ideal S2000x128 .f32) y = (V c main_v62 : S50000x128.Idx → EReal) i := by
  obtain ⟨e0, e1, -⟩ := idx_facts3 t
  unfold iblk3
  rw [View.read_apply]
  show V c main_v62 _ = V c main_v62 _
  congr 1
  funext a
  apply Fin.ext
  match a with
  | ⟨0, _⟩ => show win3_0.index t 0 * 2000 + 1 * (y 0).val = (i 0).val; rw [e0, h0]; omega
  | ⟨1, _⟩ => show win3_0.index t 1 * 128 + 1 * (y 1).val = (i 1).val; rw [e1, h1]; omega

/-- Window 1's block at every point is its whole array. -/
theorem iblk3_1_eq (c : Dev nD) (t : Fin cfg3.N) :
    (iblk3 (F := Ideal) V c 1 t : Vec Ideal S128x40 .f32) = (V c main_v63 : S128x40.Idx → EReal) := by
  obtain ⟨-, -, e0, e1, -⟩ := idx_facts3 t
  funext y
  unfold iblk3
  rw [View.read_apply]
  show V c main_v63 _ = V c main_v63 _
  congr 1
  funext a
  apply Fin.ext
  match a with
  | ⟨0, _⟩ => show win3_1.index t 0 * 128 + 1 * (y 0).val = (y 0).val; rw [e0]; omega
  | ⟨1, _⟩ => show win3_1.index t 1 * 40 + 1 * (y 1).val = (y 1).val; rw [e1]; omega

/-- Window 2's block at every point is its whole array. -/
theorem iblk3_2_eq (c : Dev nD) (t : Fin cfg3.N) :
    (iblk3 (F := Ideal) V c 2 t : Vec Ideal S1x40 .f32) = (V c main_v64 : S1x40.Idx → EReal) := by
  obtain ⟨-, -, -, -, e0, e1, -⟩ := idx_facts3 t
  funext y
  unfold iblk3
  rw [View.read_apply]
  show V c main_v64 _ = V c main_v64 _
  congr 1
  funext a
  apply Fin.ext
  match a with
  | ⟨0, _⟩ => show win3_2.index t 0 * 1 + 1 * (y 0).val = (y 0).val; rw [e0]; omega
  | ⟨1, _⟩ => show win3_2.index t 1 * 40 + 1 * (y 1).val = (y 1).val; rw [e1]; omega

/-- What point t writes back is block t of the classifier of the arrays the region finds. -/
theorem flushed3_eq (c : Dev nD) (t : Fin cfg3.N) :
    (dat3 (F := Ideal) V c).flushed 3 t = ((cfg3.win 3).blk t).view.read (Elt Ideal)
      (Cert.Sage.classify (V c main_v62) (V c main_v63) (V c main_v64)) := by
  show (cfg3.win 3).cut (grid3.coords t) ((dat3 V c).after 3 t) = _
  rw [after3_3]
  unfold out3_3
  rw [View.canon_unit_zero zero_offsets3]
  simp only [View.ld_unit_zero (S := S2000x128) zero_offsets3, View.ld_unit_zero (S := S128x40) zero_offsets3,
    View.ld_unit_zero (S := S1x40) zero_offsets3]
  obtain ⟨-, -, -, -, -, -, e0, e1⟩ := idx_facts3 t
  funext y
  refine block3 (V c main_v62) (V c main_v63) (V c main_v64)
    (iblk3 V c 0 t) (iblk3 V c 1 t) (iblk3 V c 2 t) t.val
    (fun y i h0 h1 => iblk3_0_apply V c t y i h0 h1)
    (iblk3_1_eq V c t) (iblk3_2_eq V c t) y (((cfg3.win 3).blk t).view.emb y) ?_ ?_
  · show win3_3.index t 0 * 2000 + 1 * (y 0).val = 2000 * t.val + (y 0).val
    rw [e0]; omega
  · show win3_3.index t 1 * 40 + 1 * (y 1).val = (y 1).val
    rw [e1]; omega

/-- Every row lies in the block of the point numbered by its row block: the 25 blocks cover the array. -/
theorem cover3 (i : S50000x40.Idx) :
    ∃ t : Fin cfg3.N, (cfg3.win 3).flush t = true ∧ i ∈ ((cfg3.win 3).blk t).view.set := by
  have hN : cfg3.N = 25 := N_3
  have hi0 : (i 0 : Nat) < 50000 := (i 0).isLt
  have hi1 : (i 1 : Nat) < 40 := (i 1).isLt
  have ht : (i 0).val / 2000 < cfg3.N := by rw [hN]; omega
  obtain ⟨-, -, -, -, -, -, e0, e1⟩ := idx_facts3 ⟨(i 0).val / 2000, ht⟩
  have e0' : win3_3.index ⟨(i 0).val / 2000, ht⟩ 0 = (i 0).val / 2000 := e0
  refine ⟨⟨(i 0).val / 2000, ht⟩, flush3_3 _, ?_⟩
  show i ∈ ((View.whole main_v65).slice (win3_3.rect ⟨(i 0).val / 2000, ht⟩)).set
  rw [View.set_slice_whole, Rect.mem_set_unit]
  intro a
  match a with
  | ⟨0, _⟩ =>
    show win3_3.index ⟨(i 0).val / 2000, ht⟩ 0 * 2000 ≤ (i 0 : Nat) ∧ (i 0 : Nat) < win3_3.index ⟨(i 0).val / 2000, ht⟩ 0 * 2000 + 2000
    rw [e0']; omega
  | ⟨1, _⟩ =>
    show win3_3.index ⟨(i 0).val / 2000, ht⟩ 1 * 40 ≤ (i 1 : Nat) ∧ (i 1 : Nat) < win3_3.index ⟨(i 0).val / 2000, ht⟩ 1 * 40 + 40
    rw [e1]; omega

theorem final3 (c : Dev nD) : (dat3 (F := Ideal) V c).arrAt 3 cfg3.N
    = Cert.Sage.classify (V c main_v62) (V c main_v63) (V c main_v64) :=
  (dat3 V c).arrAt_eq_of_cover 3 _ (fun t _ => flushed3_eq V c t) cover3

end Cert.KernelIdeal.Blocks

end
-- ==== Proof.RunNamed.lean ====
/-
  The kernel program's run with its final memory NAMED: every weakly fair execution of the four regions and the host
  stretches between them terminates, and every unscoped buffer of each core ends at the last boundary's contents — the
  fold of the host stretches and the regions' write-backs from the launch memory.  This is the frame's own launch over the
  program's segments with the final contents kept instead of projected to the arguments.
-/
import proofs.«162701_j57921928954040_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each core's unscoped buffers at the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Named

end
-- ==== Proof.KernelValue.lean ====
/-
  The kernel program's result as the network of the specification.

  The buffers' contents are followed from the launch memory through the program's eight segments: each host stretch is
  read as a function of the contents it starts from, each gridded region leaves its result array at the layer (or the
  classifier) of the arrays it finds, and every buffer a segment does not write keeps its contents.  At the end the
  result buffer holds the classifier of the residual layer of the second layer of the first layer of the features, with
  the neighbourhood mean taken before each layer.
-/
import proofs.«162701_j57921928954040_1_alg».proof.Proof.Gen.KernelIdeal.Frame
import proofs.«162701_j57921928954040_1_alg».proof.Proof.KernelHost
import proofs.«162701_j57921928954040_1_alg».proof.Proof.Blocks01
import proofs.«162701_j57921928954040_1_alg».proof.Proof.Blocks23
import proofs.«162701_j57921928954040_1_alg».proof.Proof.RunNamed
import proofs.«162701_j57921928954040_1_alg».proof.Proof.Spec

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.HostValue Cert.KernelIdeal.Blocks

variable (m : (ℓ : Loc nD τ sig) → Buf (Elt Ideal) ℓ) (ρ : Dev nD → PrngReg) (c : Dev nD)

/-- The neighbourhood mean over the launched edge list. -/
abbrev mean : (⟨S50000x128, .f32⟩ : BufTy).Contents (Elt Ideal) → (⟨S50000x128, .f32⟩ : BufTy).Contents (Elt Ideal) :=
  aggW (srcOf (m ((c : Thread nD τ).loc main_arg1))) (dstOf (m ((c : Thread nD τ).loc main_arg1))) (degInvOf (dstOf (m ((c : Thread nD τ).loc main_arg1))))

/-- The first layer's output. -/
abbrev h1 : Cert.Sage.Nodes.Idx → EReal :=
  Cert.Sage.layer (mean m c (m ((c : Thread nD τ).loc main_arg0))) (m ((c : Thread nD τ).loc main_arg0)) (wT (m ((c : Thread nD τ).loc main_arg2))) (brow (m ((c : Thread nD τ).loc main_arg3))) (wT (m ((c : Thread nD τ).loc main_arg4)))
/-- The second layer's output. -/
abbrev h2 : Cert.Sage.Nodes.Idx → EReal :=
  Cert.Sage.layer (mean m c (h1 m c)) (h1 m c) (wT (m ((c : Thread nD τ).loc main_arg5))) (brow (m ((c : Thread nD τ).loc main_arg6))) (wT (m ((c : Thread nD τ).loc main_arg7)))
/-- The residual layer's output. -/
abbrev h3 : Cert.Sage.Nodes.Idx → EReal :=
  Cert.Sage.layerRes (mean m c (h2 m c)) (h2 m c) (wT (m ((c : Thread nD τ).loc main_arg8))) (brow (m ((c : Thread nD τ).loc main_arg9))) (wT (m ((c : Thread nD τ).loc main_arg10)))
/-- The program's result. -/
abbrev out : Cert.Sage.Logits.Idx → EReal :=
  Cert.Sage.classify (h3 m c) (wTc (m ((c : Thread nD τ).loc main_arg11))) (browc (m ((c : Thread nD τ).loc main_arg12)))

/-! ## After the first stretch -/

theorem W1_v1 : W1 m ρ c (Proc.devRef .tc main_v1) = srcOf (m ((c : Thread nD τ).loc main_arg1)) := st0_v1 (W0 m ρ c)
theorem W1_v3 : W1 m ρ c (Proc.devRef .tc main_v3) = dstOf (m ((c : Thread nD τ).loc main_arg1)) := st0_v3 (W0 m ρ c)
theorem W1_v11 : W1 m ρ c (Proc.devRef .tc main_v11) = degInvOf (dstOf (m ((c : Thread nD τ).loc main_arg1))) := st0_v11 (W0 m ρ c)
theorem W1_v24 : W1 m ρ c (Proc.devRef .tc main_v24) = mean m c (m ((c : Thread nD τ).loc main_arg0)) := st0_v24 (W0 m ρ c)
theorem W1_v25 : W1 m ρ c (Proc.devRef .tc main_v25) = wT (m ((c : Thread nD τ).loc main_arg2)) := st0_v25 (W0 m ρ c)
theorem W1_v26 : W1 m ρ c (Proc.devRef .tc main_v26) = wT (m ((c : Thread nD τ).loc main_arg4)) := st0_v26 (W0 m ρ c)
theorem W1_v27 : W1 m ρ c (Proc.devRef .tc main_v27) = brow (m ((c : Thread nD τ).loc main_arg3)) := st0_v27 (W0 m ρ c)
theorem W1_arg0 : W1 m ρ c (Proc.devRef .tc main_arg0) = (m ((c : Thread nD τ).loc main_arg0)) := st0_arg0 (W0 m ρ c)
theorem W1_arg5 : W1 m ρ c (Proc.devRef .tc main_arg5) = (m ((c : Thread nD τ).loc main_arg5)) := st0_arg5 (W0 m ρ c)
theorem W1_arg6 : W1 m ρ c (Proc.devRef .tc main_arg6) = (m ((c : Thread nD τ).loc main_arg6)) := st0_arg6 (W0 m ρ c)
theorem W1_arg7 : W1 m ρ c (Proc.devRef .tc main_arg7) = (m ((c : Thread nD τ).loc main_arg7)) := st0_arg7 (W0 m ρ c)
theorem W1_arg8 : W1 m ρ c (Proc.devRef .tc main_arg8) = (m ((c : Thread nD τ).loc main_arg8)) := st0_arg8 (W0 m ρ c)
theorem W1_arg9 : W1 m ρ c (Proc.devRef .tc main_arg9) = (m ((c : Thread nD τ).loc main_arg9)) := st0_arg9 (W0 m ρ c)
theorem W1_arg10 : W1 m ρ c (Proc.devRef .tc main_arg10) = (m ((c : Thread nD τ).loc main_arg10)) := st0_arg10 (W0 m ρ c)
theorem W1_arg11 : W1 m ρ c (Proc.devRef .tc main_arg11) = (m ((c : Thread nD τ).loc main_arg11)) := st0_arg11 (W0 m ρ c)
theorem W1_arg12 : W1 m ρ c (Proc.devRef .tc main_arg12) = (m ((c : Thread nD τ).loc main_arg12)) := st0_arg12 (W0 m ρ c)

/-! ## After the first region -/

theorem W2_v28 : W2 m ρ c (Proc.devRef .tc main_v28) = h1 m c :=
  (W2_arr m ρ c 5).trans ((final0 (V1 m ρ) c).trans (by
    show Cert.Sage.layer (W1 m ρ c (Proc.devRef .tc main_v24)) (W1 m ρ c (Proc.devRef .tc main_arg0)) (W1 m ρ c (Proc.devRef .tc main_v25)) (W1 m ρ c (Proc.devRef .tc main_v27)) (W1 m ρ c (Proc.devRef .tc main_v26)) = _
    rw [W1_v24, W1_arg0, W1_v25, W1_v27, W1_v26]))
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v11 : W2 m ρ c (Proc.devRef .tc main_v11) = W1 m ρ c (Proc.devRef .tc main_v11) := W2_of_ne m ρ c main_v11 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
theorem W2_arg8 : W2 m ρ c (Proc.devRef .tc main_arg8) = W1 m ρ c (Proc.devRef .tc main_arg8) := W2_of_ne m ρ c main_arg8 (by decide)
theorem W2_arg9 : W2 m ρ c (Proc.devRef .tc main_arg9) = W1 m ρ c (Proc.devRef .tc main_arg9) := W2_of_ne m ρ c main_arg9 (by decide)
theorem W2_arg10 : W2 m ρ c (Proc.devRef .tc main_arg10) = W1 m ρ c (Proc.devRef .tc main_arg10) := W2_of_ne m ρ c main_arg10 (by decide)
theorem W2_arg11 : W2 m ρ c (Proc.devRef .tc main_arg11) = W1 m ρ c (Proc.devRef .tc main_arg11) := W2_of_ne m ρ c main_arg11 (by decide)
theorem W2_arg12 : W2 m ρ c (Proc.devRef .tc main_arg12) = W1 m ρ c (Proc.devRef .tc main_arg12) := W2_of_ne m ρ c main_arg12 (by decide)

/-! ## After the second stretch -/

theorem W3_v41 : W3 m ρ c (Proc.devRef .tc main_v41) = mean m c (h1 m c) :=
  (st1_v41 (W2 m ρ c)).trans (by rw [W2_v1, W2_v3, W2_v11, W2_v28, W1_v1, W1_v3, W1_v11])
theorem W3_v28 : W3 m ρ c (Proc.devRef .tc main_v28) = h1 m c := (st1_v28 (W2 m ρ c)).trans (W2_v28 m ρ c)
theorem W3_v42 : W3 m ρ c (Proc.devRef .tc main_v42) = wT (m ((c : Thread nD τ).loc main_arg5)) :=
  (st1_v42 (W2 m ρ c)).trans (by rw [W2_arg5, W1_arg5])
theorem W3_v43 : W3 m ρ c (Proc.devRef .tc main_v43) = wT (m ((c : Thread nD τ).loc main_arg7)) :=
  (st1_v43 (W2 m ρ c)).trans (by rw [W2_arg7, W1_arg7])
theorem W3_v44 : W3 m ρ c (Proc.devRef .tc main_v44) = brow (m ((c : Thread nD τ).loc main_arg6)) :=
  (st1_v44 (W2 m ρ c)).trans (by rw [W2_arg6, W1_arg6])
theorem W3_v1 : W3 m ρ c (Proc.devRef .tc main_v1) = srcOf (m ((c : Thread nD τ).loc main_arg1)) :=
  (st1_v1 (W2 m ρ c)).trans ((W2_v1 m ρ c).trans (W1_v1 m ρ c))
theorem W3_v3 : W3 m ρ c (Proc.devRef .tc main_v3) = dstOf (m ((c : Thread nD τ).loc main_arg1)) :=
  (st1_v3 (W2 m ρ c)).trans ((W2_v3 m ρ c).trans (W1_v3 m ρ c))
theorem W3_v11 : W3 m ρ c (Proc.devRef .tc main_v11) = degInvOf (dstOf (m ((c : Thread nD τ).loc main_arg1))) :=
  (st1_v11 (W2 m ρ c)).trans ((W2_v11 m ρ c).trans (W1_v11 m ρ c))
theorem W3_arg8 : W3 m ρ c (Proc.devRef .tc main_arg8) = (m ((c : Thread nD τ).loc main_arg8)) :=
  (st1_arg8 (W2 m ρ c)).trans ((W2_arg8 m ρ c).trans (W1_arg8 m ρ c))
theorem W3_arg9 : W3 m ρ c (Proc.devRef .tc main_arg9) = (m ((c : Thread nD τ).loc main_arg9)) :=
  (st1_arg9 (W2 m ρ c)).trans ((W2_arg9 m ρ c).trans (W1_arg9 m ρ c))
theorem W3_arg10 : W3 m ρ c (Proc.devRef .tc main_arg10) = (m ((c : Thread nD τ).loc main_arg10)) :=
  (st1_arg10 (W2 m ρ c)).trans ((W2_arg10 m ρ c).trans (W1_arg10 m ρ c))
theorem W3_arg11 : W3 m ρ c (Proc.devRef .tc main_arg11) = (m ((c : Thread nD τ).loc main_arg11)) :=
  (st1_arg11 (W2 m ρ c)).trans ((W2_arg11 m ρ c).trans (W1_arg11 m ρ c))
theorem W3_arg12 : W3 m ρ c (Proc.devRef .tc main_arg12) = (m ((c : Thread nD τ).loc main_arg12)) :=
  (st1_arg12 (W2 m ρ c)).trans ((W2_arg12 m ρ c).trans (W1_arg12 m ρ c))

/-! ## After the second region -/

theorem W4_v45 : W4 m ρ c (Proc.devRef .tc main_v45) = h2 m c :=
  (W4_arr m ρ c 5).trans ((final1 (V3 m ρ) c).trans (by
    show Cert.Sage.layer (W3 m ρ c (Proc.devRef .tc main_v41)) (W3 m ρ c (Proc.devRef .tc main_v28)) (W3 m ρ c (Proc.devRef .tc main_v42)) (W3 m ρ c (Proc.devRef .tc main_v44)) (W3 m ρ c (Proc.devRef .tc main_v43)) = _
    rw [W3_v41, W3_v28, W3_v42, W3_v44, W3_v43]))
theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_v11 : W4 m ρ c (Proc.devRef .tc main_v11) = W3 m ρ c (Proc.devRef .tc main_v11) := W4_of_ne m ρ c main_v11 (by decide)
theorem W4_arg8 : W4 m ρ c (Proc.devRef .tc main_arg8) = W3 m ρ c (Proc.devRef .tc main_arg8) := W4_of_ne m ρ c main_arg8 (by decide)
theorem W4_arg9 : W4 m ρ c (Proc.devRef .tc main_arg9) = W3 m ρ c (Proc.devRef .tc main_arg9) := W4_of_ne m ρ c main_arg9 (by decide)
theorem W4_arg10 : W4 m ρ c (Proc.devRef .tc main_arg10) = W3 m ρ c (Proc.devRef .tc main_arg10) := W4_of_ne m ρ c main_arg10 (by decide)
theorem W4_arg11 : W4 m ρ c (Proc.devRef .tc main_arg11) = W3 m ρ c (Proc.devRef .tc main_arg11) := W4_of_ne m ρ c main_arg11 (by decide)
theorem W4_arg12 : W4 m ρ c (Proc.devRef .tc main_arg12) = W3 m ρ c (Proc.devRef .tc main_arg12) := W4_of_ne m ρ c main_arg12 (by decide)

/-! ## After the third stretch -/

theorem W5_v58 : W5 m ρ c (Proc.devRef .tc main_v58) = mean m c (h2 m c) :=
  (st2_v58 (W4 m ρ c)).trans (by rw [W4_v1, W4_v3, W4_v11, W4_v45, W3_v1, W3_v3, W3_v11])
theorem W5_v45 : W5 m ρ c (Proc.devRef .tc main_v45) = h2 m c := (st2_v45 (W4 m ρ c)).trans (W4_v45 m ρ c)
theorem W5_v59 : W5 m ρ c (Proc.devRef .tc main_v59) = wT (m ((c : Thread nD τ).loc main_arg8)) :=
  (st2_v59 (W4 m ρ c)).trans (by rw [W4_arg8, W3_arg8])
theorem W5_v60 : W5 m ρ c (Proc.devRef .tc main_v60) = wT (m ((c : Thread nD τ).loc main_arg10)) :=
  (st2_v60 (W4 m ρ c)).trans (by rw [W4_arg10, W3_arg10])
theorem W5_v61 : W5 m ρ c (Proc.devRef .tc main_v61) = brow (m ((c : Thread nD τ).loc main_arg9)) :=
  (st2_v61 (W4 m ρ c)).trans (by rw [W4_arg9, W3_arg9])
theorem W5_arg11 : W5 m ρ c (Proc.devRef .tc main_arg11) = (m ((c : Thread nD τ).loc main_arg11)) :=
  (st2_arg11 (W4 m ρ c)).trans ((W4_arg11 m ρ c).trans (W3_arg11 m ρ c))
theorem W5_arg12 : W5 m ρ c (Proc.devRef .tc main_arg12) = (m ((c : Thread nD τ).loc main_arg12)) :=
  (st2_arg12 (W4 m ρ c)).trans ((W4_arg12 m ρ c).trans (W3_arg12 m ρ c))

/-! ## After the third region -/

theorem W6_v62 : W6 m ρ c (Proc.devRef .tc main_v62) = h3 m c :=
  (W6_arr m ρ c 5).trans ((final2 (V5 m ρ) c).trans (by
    show Cert.Sage.layerRes (W5 m ρ c (Proc.devRef .tc main_v58)) (W5 m ρ c (Proc.devRef .tc main_v45)) (W5 m ρ c (Proc.devRef .tc main_v59)) (W5 m ρ c (Proc.devRef .tc main_v61)) (W5 m ρ c (Proc.devRef .tc main_v60)) = _
    rw [W5_v58, W5_v45, W5_v59, W5_v61, W5_v60]))
theorem W6_arg11 : W6 m ρ c (Proc.devRef .tc main_arg11) = (m ((c : Thread nD τ).loc main_arg11)) :=
  (W6_of_ne m ρ c main_arg11 (by decide)).trans (W5_arg11 m ρ c)
theorem W6_arg12 : W6 m ρ c (Proc.devRef .tc main_arg12) = (m ((c : Thread nD τ).loc main_arg12)) :=
  (W6_of_ne m ρ c main_arg12 (by decide)).trans (W5_arg12 m ρ c)

/-! ## After the last stretch, and the last region -/

theorem W7_v62 : W7 m ρ c (Proc.devRef .tc main_v62) = h3 m c := (st3_v62 (W6 m ρ c)).trans (W6_v62 m ρ c)
theorem W7_v63 : W7 m ρ c (Proc.devRef .tc main_v63) = wTc (m ((c : Thread nD τ).loc main_arg11)) :=
  (st3_v63 (W6 m ρ c)).trans (by rw [W6_arg11])
theorem W7_v64 : W7 m ρ c (Proc.devRef .tc main_v64) = browc (m ((c : Thread nD τ).loc main_arg12)) :=
  (st3_v64 (W6 m ρ c)).trans (by rw [W6_arg12])

/-- The result buffer at the last boundary holds the network's output. -/
theorem W8_v65 : W8 m ρ c (Proc.devRef .tc main_v65) = out m c :=
  (W8_arr m ρ c 3).trans ((final3 (V7 m ρ) c).trans (by
    show Cert.Sage.classify (W7 m ρ c (Proc.devRef .tc main_v62)) (W7 m ρ c (Proc.devRef .tc main_v63)) (W7 m ρ c (Proc.devRef .tc main_v64)) = _
    rw [W7_v62, W7_v63, W7_v64]))

/-- The network's output is the specification's model at the launched arrays. -/
theorem out_eq_model : out m c = Cert.Sage.model (mean m c) (m ((c : Thread nD τ).loc main_arg0))
    (wT (m ((c : Thread nD τ).loc main_arg2))) (brow (m ((c : Thread nD τ).loc main_arg3))) (wT (m ((c : Thread nD τ).loc main_arg4)))
    (wT (m ((c : Thread nD τ).loc main_arg5))) (brow (m ((c : Thread nD τ).loc main_arg6))) (wT (m ((c : Thread nD τ).loc main_arg7)))
    (wT (m ((c : Thread nD τ).loc main_arg8))) (brow (m ((c : Thread nD τ).loc main_arg9))) (wT (m ((c : Thread nD τ).loc main_arg10)))
    (wTc (m ((c : Thread nD τ).loc main_arg11))) (browc (m ((c : Thread nD τ).loc main_arg12))) := rfl

/-- The run, read: every execution ends with the result buffer at the network's output and the arguments unchanged. -/
theorem run_value : θ_run (defs (F := Ideal)) (onTc (τ := τ) (main (F := Ideal))) ⟨m, fun _ => 0, ρ⟩ (fun r => ∀ c : Dev nD,
      r.2.mem ((c.tc : Thread nD τ).loc main_v65) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v65 (by decide))).trans (W8_v65 m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c)⟩)
    (Cert.KernelIdeal.Named.run_named m ρ)

end Cert.KernelIdeal.Whole

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.RefLayer.lean ====
/-
  The reference program's layer and classifier, as it spells them with host operations, are the layer and the
  classifier of the specification: read at node n and channel j, a plain [50000,128]x[128,c] product is the sum over
  the 128 input channels, a bias row laid down the rows reads the row at (0, j), the splat of the zero word reads that
  word, and sum, maximum are pointwise.
-/
import proofs.«162701_j57921928954040_1_alg».proof.Proof.Gen.ReferenceIdeal
import proofs.«162701_j57921928954040_1_alg».proof.Proof.Spec
import proofs.«162701_j57921928954040_1_alg».proof.Proof.LibPlainDot
import proofs.«162701_j57921928954040_1_alg».proof.Proof.LibBroadcasts

noncomputable section

namespace Cert.ReferenceIdeal.RefValue

open Idealize.ShloMosaic Idealize.ShloMosaic.TcCoe Idealize.SL.Sem Cert.ReferenceIdeal Cert.ReferenceIdeal.Gen
open Idealize.ShloMosaic.ValueIdx

/-- A row [1, b] laid down a rows, read at (n, j): the row at (0, j). -/
theorem rowDown_apply {α : Type} {a b : ℕ} (x : (⟨2, ![1, b]⟩ : Shape).Idx → α)
    (h1 : (⟨2, ![1, b]⟩ : Shape).BroadcastsInDim ⟨2, ![a, b]⟩ ![0, 1]) (n : Fin a) (j : Fin b) :
    broadcastInDim ⟨2, ![a, b]⟩ ![0, 1] h1 x (ix2 n j) = x (ix2 (0 : Fin 1) j) := by
  refine broadcastInDim_apply ![0, 1] h1 x (ix2 n j) (ix2 (0 : Fin 1) j) (fun q => ?_)
  match q with
  | ⟨0, _⟩ =>
    show (0 : ℕ) = if (1 : ℕ) = 1 then 0 else n.val
    rw [if_pos rfl]
  | ⟨1, _⟩ =>
    show j.val = if b = 1 then 0 else j.val
    by_cases hb : b = 1
    · rw [if_pos hb]; have := j.isLt; omega
    · rw [if_neg hb]

/-- The [50000,128]x[128,128] product at (n, j): the sum over the 128 input channels. -/
theorem dot128_apply (a : FVec Ideal S50000x128 .f32) (w : FVec Ideal S128x128 .f32) (n : Fin 50000) (j : Fin 128) :
    Host.dotGeneral dot_S50000x128_S128x128_S50000x128_1_0_0_1_n_n none a w (ix2 n j) = ∑ k : Fin 128, a (ix2 n k) * w (ix2 k j) :=
  Cert.PlainDot.dotGeneral_apply dot_S50000x128_S128x128_S50000x128_1_0_0_1_n_n rfl none .single a w n j

/-- The [50000,128]x[128,40] product at (n, j): the sum over the 128 input channels. -/
theorem dot40_apply (a : FVec Ideal S50000x128 .f32) (w : FVec Ideal S128x40 .f32) (n : Fin 50000) (j : Fin 40) :
    Host.dotGeneral dot_S50000x128_S128x40_S50000x40_1_0_0_1_n_n none a w (ix2 n j) = ∑ k : Fin 128, a (ix2 n k) * w (ix2 k j) :=
  Cert.PlainDot.dotGeneral_apply dot_S50000x128_S128x40_S50000x40_1_0_0_1_n_n rfl none .single a w n j

/-- One layer as the reference spells it is the specification's layer. -/
theorem layer_host (a x : FVec Ideal S50000x128 .f32) (wl wr : FVec Ideal S128x128 .f32) (b : FVec Ideal S1x128 .f32) :
    maximumf (addf (addf (Host.dotGeneral dot_S50000x128_S128x128_S50000x128_1_0_0_1_n_n none a wl)
          (broadcastInDim S50000x128 ![0, 1] bcast_S1x128_S50000x128_0_1 b))
        (Host.dotGeneral dot_S50000x128_S128x128_S50000x128_1_0_0_1_n_n none x wr))
      (broadcastInDim S50000x128 ![] bcast_S_S50000x128 (constant (F := Ideal) S_ .f32 0x00000000#32))
    = Cert.Sage.layer a x wl b wr := by
  funext i
  obtain ⟨n, j, rfl⟩ : ∃ (n : Fin 50000) (j : Fin 128), i = ix2 n j := ⟨i 0, i 1, eq_ix2 i⟩
  rw [Cert.Sage.layer_apply, maximumf_apply, addf_apply, addf_apply,
    dot128_apply, dot128_apply, rowDown_apply, Cert.Broadcasts.splat_apply, constant_apply]

/-- The classifier as the reference spells it is the specification's classifier. -/
theorem classify_host (v : FVec Ideal S50000x128 .f32) (wc : FVec Ideal S128x40 .f32) (bc : FVec Ideal S1x40 .f32) :
    addf (Host.dotGeneral dot_S50000x128_S128x40_S50000x40_1_0_0_1_n_n none v wc)
      (broadcastInDim S50000x40 ![0, 1] bcast_S1x40_S50000x40_0_1 bc)
    = Cert.Sage.classify v wc bc := by
  funext i
  obtain ⟨n, j, rfl⟩ : ∃ (n : Fin 50000) (j : Fin 40), i = ix2 n j := ⟨i 0, i 1, eq_ix2 i⟩
  rw [Cert.Sage.classify_apply, addf_apply,
    dot40_apply, rowDown_apply]

end Cert.ReferenceIdeal.RefValue

end
-- ==== Proof.RefHost.lean ====
/-
  The reference program's shared host operations, named.

  Between the gridded regions the program runs plain array operations: the edge list is split into sources and
  destinations, the in-degree of every node is counted by scattering ones, its reciprocal (of the degree clamped
  below at one) scales a scatter-add of gathered neighbour rows — the neighbourhood mean —, and the weights are
  transposed and the biases laid out as rows.  These are the reference's own operations with the feature array a parameter.
-/
import proofs.«162701_j57921928954040_1_alg».proof.Proof.Gen.ReferenceIdeal
import Idealize.ShloMosaic.PureOps.Ideal

set_option maxRecDepth 16384

noncomputable section

namespace Cert.ReferenceIdeal.HostValue

open Idealize.ShloMosaic Idealize.ShloMosaic.TcCoe Idealize.SL.Sem
open Cert.ReferenceIdeal Cert.ReferenceIdeal.Gen

variable {F : FTy → Type} [FloatOps F]

/-- The edges' source nodes: row 0 of the edge list. -/
def srcOf (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

/-- The edges' destination nodes: row 1 of the edge list. -/
def dstOf (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- One over the in-degree clamped below at one: ones scattered onto the destinations, max with 1, reciprocal. -/
def degInvOf (dst : (⟨S600000, .i32⟩ : BufTy).Contents (Elt F)) : (⟨S50000, .f32⟩ : BufTy).Contents (Elt F) :=
  Host.divf (broadcastInDim S50000 ![] bcast_S_S50000 (constant S_ .f32 0x3F800000#32))
    (maximumf
      (Host.scatterAdd scatter_S50000_S600000x1_S600000_n_0_0_1
        (broadcastInDim S50000 ![] bcast_S_S50000 (constant S_ .f32 0x00000000#32))
        (broadcastInDim S600000x1 ![0] bcast_S600000_S600000x1_0 dst)
        (broadcastInDim S600000 ![] bcast_S_S600000 (constant S_ .f32 0x3F800000#32)))
      (broadcastInDim S50000 ![] bcast_S_S50000 (constant S_ .f32 0x3F800000#32)))

/-- The neighbourhood mean of a feature array: rows gathered at the (wrapped) sources, added onto the destinations,
    scaled by the reciprocal degree. -/
def aggW (src dst : (⟨S600000, .i32⟩ : BufTy).Contents (Elt F)) (dinv : (⟨S50000, .f32⟩ : BufTy).Contents (Elt F)) (feat : (⟨S50000x128, .f32⟩ : BufTy).Contents (Elt F)) : (⟨S50000x128, .f32⟩ : BufTy).Contents (Elt F) :=
  mulf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst)
      (Host.gather gather_S50000x128_S600000x1_S600000x128_1_0_n_n_0_1_1128 feat
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1 (broadcastInDim S50000x1 ![0] bcast_S50000_S50000x1_0 dinv))

/-- A layer's weight matrix transposed to [in, out]. -/
def wT (w : (⟨S128x128, .f32⟩ : BufTy).Contents (Elt F)) : (⟨S128x128, .f32⟩ : BufTy).Contents (Elt F) := transpose S128x128 [1, 0] w transposes_S128x128_S128x128_1_0
/-- The classifier's weight matrix transposed to [128, 40]. -/
def wTc (w : (⟨S40x128, .f32⟩ : BufTy).Contents (Elt F)) : (⟨S128x40, .f32⟩ : BufTy).Contents (Elt F) := transpose S128x40 [1, 0] w transposes_S40x128_S128x40_1_0
/-- A bias vector laid out as a row. -/
def brow (b : (⟨S128, .f32⟩ : BufTy).Contents (Elt F)) : (⟨S1x128, .f32⟩ : BufTy).Contents (Elt F) := broadcastInDim S1x128 ![1] bcast_S128_S1x128_1 b
def browc (b : (⟨S40, .f32⟩ : BufTy).Contents (Elt F)) : (⟨S1x40, .f32⟩ : BufTy).Contents (Elt F) := broadcastInDim S1x40 ![1] bcast_S40_S1x40_1 b

end Cert.ReferenceIdeal.HostValue

end
-- ==== Proof.RefValue.lean ====
/-
  The reference run's result is the network of the specification. The result term is three layers, each applying
  the neighbourhood mean to its input, the third adding its input back, and the classifier; each layer and the
  classifier is rewritten to the specification's, innermost first, and what remains is the specification unfolded.
-/
import proofs.«162701_j57921928954040_1_alg».proof.Proof.Gen.ReferenceIdeal.Run
import proofs.«162701_j57921928954040_1_alg».proof.Proof.RefLayer
import proofs.«162701_j57921928954040_1_alg».proof.Proof.RefHost

noncomputable section

namespace Cert.ReferenceIdeal.RefValue

open Idealize.ShloMosaic Idealize.ShloMosaic.TcCoe Idealize.SL.Sem Cert.ReferenceIdeal Cert.ReferenceIdeal.Gen

/-- The neighbourhood mean as the reference computes it from the edge list: the shared host operations at the edge
    list's sources, destinations and inverse in-degree. -/
abbrev aggOf (ei : (⟨S2x600000, .i32⟩ : BufTy).Contents (Elt Ideal)) :
    (⟨S50000x128, .f32⟩ : BufTy).Contents (Elt Ideal) → (⟨S50000x128, .f32⟩ : BufTy).Contents (Elt Ideal) :=
  HostValue.aggW (F := Ideal) (HostValue.srcOf (F := Ideal) ei) (HostValue.dstOf (F := Ideal) ei) (HostValue.degInvOf (F := Ideal) (HostValue.dstOf (F := Ideal) ei))

/-- One layer of the reference, over its edge list, input, weights and bias: the specification's layer at the
    neighbourhood mean of the input. -/
theorem layer_ref (ei : (⟨S2x600000, .i32⟩ : BufTy).Contents (Elt Ideal)) (x : FVec Ideal S50000x128 .f32)
    (wl : FVec Ideal S128x128 .f32) (b : FVec Ideal S128 .f32) (wr : FVec Ideal S128x128 .f32) :
    maximumf (addf (addf (Host.dotGeneral dot_S50000x128_S128x128_S50000x128_1_0_0_1_n_n none (mulf (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast S600000 (extractStridedSlice S1x600000 ![1, 0] ei slices_S2x600000_S1x600000_1_0) shapeCasts_S1x600000_S600000)) (Host.gather gather_S50000x128_S600000x1_S600000x128_1_0_n_n_0_1_1128 x (broadcastInDim S600000x1 ![0] bcast_S600000_S600000x1_0 (select (cmpi .slt (shapeCast S600000 (extractStridedSlice S1x600000 ![0, 0] ei slices_S2x600000_S1x600000_0_0) shapeCasts_S1x600000_S600000) (broadcastInDim S600000 ![] bcast_S_S600000 (constantI S_ 32 0#32))) (addi (shapeCast S600000 (extractStridedSlice S1x600000 ![0, 0] ei slices_S2x600000_S1x600000_0_0) shapeCasts_S1x600000_S600000) (broadcastInDim S600000 ![] bcast_S_S600000 (constantI S_ 32 50000#32))) (shapeCast S600000 (extractStridedSlice S1x600000 ![0, 0] ei slices_S2x600000_S1x600000_0_0) shapeCasts_S1x600000_S600000))))) (broadcastInDim S50000x128 ![0, 1] bcast_S50000x1_S50000x128_0_1 (broadcastInDim S50000x1 ![0] bcast_S50000_S50000x1_0 (Host.divf (broadcastInDim S50000 ![] bcast_S_S50000 (constant (F := Ideal) S_ .f32 0x3F800000#32)) (maximumf (Host.scatterAdd scatter_S50000_S600000x1_S600000_n_0_0_1 (broadcastInDim S50000 ![] bcast_S_S50000 (constant (F := Ideal) S_ .f32 0x00000000#32)) (broadcastInDim S600000x1 ![0] bcast_S600000_S600000x1_0 (shapeCast S600000 (extractStridedSlice S1x600000 ![1, 0] ei slices_S2x600000_S1x600000_1_0) shapeCasts_S1x600000_S600000)) (broadcastInDim S600000 ![] bcast_S_S600000 (constant (F := Ideal) S_ .f32 0x3F800000#32))) (broadcastInDim S50000 ![] bcast_S_S50000 (constant (F := Ideal) S_ .f32 0x3F800000#32))))))) (transpose S128x128 [1, 0] wl transposes_S128x128_S128x128_1_0)) (broadcastInDim S50000x128 ![0, 1] bcast_S1x128_S50000x128_0_1 (broadcastInDim S1x128 ![1] bcast_S128_S1x128_1 b))) (Host.dotGeneral dot_S50000x128_S128x128_S50000x128_1_0_0_1_n_n none x (transpose S128x128 [1, 0] wr transposes_S128x128_S128x128_1_0))) (broadcastInDim S50000x128 ![] bcast_S_S50000x128 (constant (F := Ideal) S_ .f32 0x00000000#32))
      = Cert.Sage.layer (aggOf ei x) x (HostValue.wT (F := Ideal) wl) (HostValue.brow (F := Ideal) b) (HostValue.wT (F := Ideal) wr) :=
  layer_host (aggOf ei x) x (HostValue.wT (F := Ideal) wl) (HostValue.wT (F := Ideal) wr) (HostValue.brow (F := Ideal) b)

/-- A layer plus its input is the residual layer. -/
theorem layerRes_host (a x : FVec Ideal S50000x128 .f32) (wl wr : FVec Ideal S128x128 .f32) (b : FVec Ideal S1x128 .f32) :
    addf (Cert.Sage.layer a x wl b wr) x = Cert.Sage.layerRes a x wl b wr := rfl

/-- The classifier of the reference, over its input, weight and bias. -/
theorem classify_ref (v : FVec Ideal S50000x128 .f32) (wc : FVec Ideal S40x128 .f32) (bc : FVec Ideal S40 .f32) :
    addf (Host.dotGeneral dot_S50000x128_S128x40_S50000x40_1_0_0_1_n_n none v (transpose S128x40 [1, 0] wc transposes_S40x128_S128x40_1_0)) (broadcastInDim S50000x40 ![0, 1] bcast_S1x40_S50000x40_0_1 (broadcastInDim S1x40 ![1] bcast_S40_S1x40_1 bc))
      = Cert.Sage.classify v (HostValue.wTc (F := Ideal) wc) (HostValue.browc (F := Ideal) bc) :=
  classify_host v (HostValue.wTc (F := Ideal) wc) (HostValue.browc (F := Ideal) bc)

/-- The reference run's result buffer holds the network's value at the arguments' contents. -/
theorem ref_value (m : (ℓ : Loc nD τ sig) → Buf (Elt Ideal) ℓ) (c : Dev nD) :
    Cert.ReferenceIdeal.Value.res_main_v83 (F := Ideal) m c
      = Cert.Sage.model
          (HostValue.aggW (F := Ideal) (HostValue.srcOf (F := Ideal) (m ((c.tc : Thread nD τ).loc main_arg1))) (HostValue.dstOf (F := Ideal) (m ((c.tc : Thread nD τ).loc main_arg1))) (HostValue.degInvOf (F := Ideal) (HostValue.dstOf (F := Ideal) (m ((c.tc : Thread nD τ).loc main_arg1)))))
          (m ((c.tc : Thread nD τ).loc main_arg0))
          (HostValue.wT (F := Ideal) (m ((c.tc : Thread nD τ).loc main_arg2))) (HostValue.brow (F := Ideal) (m ((c.tc : Thread nD τ).loc main_arg3))) (HostValue.wT (F := Ideal) (m ((c.tc : Thread nD τ).loc main_arg4)))
          (HostValue.wT (F := Ideal) (m ((c.tc : Thread nD τ).loc main_arg5))) (HostValue.brow (F := Ideal) (m ((c.tc : Thread nD τ).loc main_arg6))) (HostValue.wT (F := Ideal) (m ((c.tc : Thread nD τ).loc main_arg7)))
          (HostValue.wT (F := Ideal) (m ((c.tc : Thread nD τ).loc main_arg8))) (HostValue.brow (F := Ideal) (m ((c.tc : Thread nD τ).loc main_arg9))) (HostValue.wT (F := Ideal) (m ((c.tc : Thread nD τ).loc main_arg10)))
          (HostValue.wTc (F := Ideal) (m ((c.tc : Thread nD τ).loc main_arg11))) (HostValue.browc (F := Ideal) (m ((c.tc : Thread nD τ).loc main_arg12))) := by
  unfold Cert.ReferenceIdeal.Value.res_main_v83
  rw [layer_ref (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4))]
  rw [layer_ref (m ((c.tc : Thread nD τ).loc main_arg1)) _ (m ((c.tc : Thread nD τ).loc main_arg5)) (m ((c.tc : Thread nD τ).loc main_arg6)) (m ((c.tc : Thread nD τ).loc main_arg7))]
  rw [layer_ref (m ((c.tc : Thread nD τ).loc main_arg1)) _ (m ((c.tc : Thread nD τ).loc main_arg8)) (m ((c.tc : Thread nD τ).loc main_arg9)) (m ((c.tc : Thread nD τ).loc main_arg10))]
  rw [layerRes_host, classify_ref]
  rfl

end Cert.ReferenceIdeal.RefValue

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.Bridge.lean ====
/-
  The two programs run the same host operations between their gridded regions — the split of the edge list, the
  reciprocal clamped in-degree, the neighbourhood mean, the transposed weights — each written over its own copy of
  the shapes and dimension records. Read as functions of their arguments the two copies are one function: the
  shapes are the same literals, the dimension records have the same fields, and side conditions are propositions.
  Only the bias rows differ in how they are written: one program reshapes a vector of n entries to a [1, n] array,
  the other broadcasts it to [1, n] along the second axis; entry (0, j) of either is entry j of the vector.
  Every equation holds for any float model.
-/
import proofs.«162701_j57921928954040_1_alg».proof.Proof.KernelHost
import proofs.«162701_j57921928954040_1_alg».proof.Proof.RefHost
import proofs.«162701_j57921928954040_1_alg».proof.Proof.LibRowVector

set_option maxRecDepth 16384

noncomputable section

namespace Cert.Bridge

open Idealize.ShloMosaic

variable {F : FTy → Type} [FloatOps F]

/-- The edges' source nodes. -/
theorem srcOf_eq : (Cert.KernelIdeal.HostValue.srcOf (F := F)) = Cert.ReferenceIdeal.HostValue.srcOf := rfl
/-- The edges' destination nodes. -/
theorem dstOf_eq : (Cert.KernelIdeal.HostValue.dstOf (F := F)) = Cert.ReferenceIdeal.HostValue.dstOf := rfl
/-- One over the in-degree clamped below at one. -/
theorem degInvOf_eq : (Cert.KernelIdeal.HostValue.degInvOf (F := F)) = Cert.ReferenceIdeal.HostValue.degInvOf := rfl
/-- The neighbourhood mean. -/
theorem aggW_eq : (Cert.KernelIdeal.HostValue.aggW (F := F)) = Cert.ReferenceIdeal.HostValue.aggW := rfl
/-- A layer's transposed weights. -/
theorem wT_eq : (Cert.KernelIdeal.HostValue.wT (F := F)) = Cert.ReferenceIdeal.HostValue.wT := rfl
/-- The classifier's transposed weights. -/
theorem wTc_eq : (Cert.KernelIdeal.HostValue.wTc (F := F)) = Cert.ReferenceIdeal.HostValue.wTc := rfl

/-- A layer's bias as a row: the reshape and the broadcast along the second axis are one array. -/
theorem brow_eq : (Cert.KernelIdeal.HostValue.brow (F := F)) = Cert.ReferenceIdeal.HostValue.brow :=
  funext fun b => Cert.RowVector.reshape_eq_broadcast b _ _
/-- The classifier's bias as a row. -/
theorem browc_eq : (Cert.KernelIdeal.HostValue.browc (F := F)) = Cert.ReferenceIdeal.HostValue.browc :=
  funext fun b => Cert.RowVector.reshape_eq_broadcast b _ _

end Cert.Bridge

end
-- ==== Proof.lean ====
/-
  The certificate's claim.

  The kernel program computes a three-layer graph network and a classifier with four gridded regions (one per dense
  stage: two matrix products, a bias, a rectifier, for the third layer the input added back) among host stretches that
  compute the neighbourhood means; the reference computes the same network with host matrix products.  Over the extended
  reals both results are the specification's model of the argument arrays (Proof/Spec.lean): a change of float format is
  the identity, an on-chip product into a zero accumulator and a host product are the same sum over the contracted
  channels, the 25 row blocks of a region tile its result array, the bias reshaped to a row is the bias broadcast to a
  row, and the neighbourhood mean is the same chain of host operations in both programs.  The sums are compared term by
  term in the same order, so no finiteness of the inputs is used.  The frames are the generated frame certificates (the
  reference's: its generated run with the result dropped); no operation was rewritten by the idealization.
-/
import proofs.«162701_j57921928954040_1_alg».proof.Defs
import proofs.«162701_j57921928954040_1_alg».proof.Proof.Gen.Kernel
import proofs.«162701_j57921928954040_1_alg».proof.Proof.Gen.Kernel.Skeleton
import proofs.«162701_j57921928954040_1_alg».proof.Proof.Gen.Kernel.Launch
import proofs.«162701_j57921928954040_1_alg».proof.Proof.Gen.Kernel.Points
import proofs.«162701_j57921928954040_1_alg».proof.Proof.Gen.Kernel.Frame
import proofs.«162701_j57921928954040_1_alg».proof.Proof.Gen.KernelIdeal
import proofs.«162701_j57921928954040_1_alg».proof.Proof.Gen.KernelIdeal.Skeleton
import proofs.«162701_j57921928954040_1_alg».proof.Proof.Gen.KernelIdeal.Launch
import proofs.«162701_j57921928954040_1_alg».proof.Proof.Gen.KernelIdeal.Points
import proofs.«162701_j57921928954040_1_alg».proof.Proof.Gen.KernelIdeal.Frame
import proofs.«162701_j57921928954040_1_alg».proof.Proof.Gen.ReferenceIdeal
import proofs.«162701_j57921928954040_1_alg».proof.Proof.Gen.ReferenceIdeal.Run
import proofs.«162701_j57921928954040_1_alg».proof.Proof.Gen.Pre_finite_inputs
import proofs.«162701_j57921928954040_1_alg».proof.Proof.KernelValue
import proofs.«162701_j57921928954040_1_alg».proof.Proof.RefValue
import proofs.«162701_j57921928954040_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the model of the argument arrays in their result buffers. -/
theorem algebraic : Cert.algebraic_KernelIdeal_ReferenceIdeal := by
  intro m ρ m' ρ' _ hagree
  refine ⟨fun c => Cert.KernelIdeal.Whole.out m c, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  show Cert.ReferenceIdeal.Value.res_main_v83 (F := Ideal) m' c = Cert.KernelIdeal.Whole.out m c
  rw [Cert.ReferenceIdeal.RefValue.ref_value, Cert.KernelIdeal.Whole.out_eq_model, e0, e1, e2, e3, e4, e5, e6, e7, e8, e9, e10, e11, e12]
  rw [Cert.Bridge.brow_eq (F := Ideal), Cert.Bridge.browc_eq (F := Ideal)]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
